-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4x2048 : Shape := ⟨3, ![2048, 4, 2048]⟩
abbrev S2048 : Shape := ⟨1, ![2048]⟩
abbrev S2048x8192 : Shape := ⟨2, ![2048, 8192]⟩
abbrev S_ : Shape := ⟨0, ![]⟩

class Facts : Prop where
  bcast_S_S2048x4x2048 : S_.BroadcastsInDim S2048x4x2048 (![] : Fin 0 → Fin S2048x4x2048.rank)
  reducesTo_S2048x4x2048_S_d0_1_2 : S2048x4x2048.ReducesTo [0, 1, 2] S_
  h_S_ : 0 < S_.numel
  bcast_S_S2048 : S_.BroadcastsInDim S2048 (![] : Fin 0 → Fin S2048.rank)
  reducesTo_S2048_S_d0 : S2048.ReducesTo [0] S_
  bcast_S_S2048x8192 : S_.BroadcastsInDim S2048x8192 (![] : Fin 0 → Fin S2048x8192.rank)
  reducesTo_S2048x8192_S_d0_1 : S2048x8192.ReducesTo [0, 1] S_

variable [Facts]

def fn_part1 {F : FTy → Type} [FloatOps F] (main_v13 : IVec S_ 1) (main_v16 : IVec S2048x8192 1) : IVec S_ 1 :=
  let main_c_5 : IVec S_ 1 := constantI S_ 1 1#1
  let main_v17 : IVec S_ 1 := (fun x v => Host.reduce IntOp.andi x v reducesTo_S2048x8192_S_d0_1 h_S_) main_v16 main_c_5
  let main_v18 : IVec S_ 1 := andi main_v13 main_v17
  main_v18

def fn {F : FTy → Type} [FloatOps F] (main_arg0 : FVec F S2048x4x2048 .f32) (main_arg1 : FVec F S2048 .f32) (main_arg2 : FVec F S2048 .f32) (main_arg3 : FVec F S2048x8192 .f32) : IVec S_ 1 :=
  let main_v0 : FVec F S2048x4x2048 .f32 := Host.absf main_arg0
  let main_cst : FVec F S_ .f32 := constant S_ .f32 0x7F800000#32
  let main_v1 : FVec F S2048x4x2048 .f32 := broadcastInDim S2048x4x2048 ![] bcast_S_S2048x4x2048 main_cst
  let main_v2 : IVec S2048x4x2048 1 := cmpf .olt main_v0 main_v1
  let main_c : IVec S_ 1 := constantI S_ 1 1#1
  let main_v3 : IVec S_ 1 := (fun x v => Host.reduce IntOp.andi x v reducesTo_S2048x4x2048_S_d0_1_2 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x8192 .f32 := Host.absf main_arg3
  let main_cst_4 : FVec F S_ .f32 := constant S_ .f32 0x7F800000#32
  let main_v15 : FVec F S2048x8192 .f32 := broadcastInDim S2048x8192 ![] bcast_S_S2048x8192 main_cst_4
  let main_v16 : IVec S2048x8192 1 := cmpf .olt main_v14 main_v15
  fn_part1 (F := F) main_v13 main_v16
-- ==== Kernel.lean ====
abbrev S2048x4x2048 : Shape := ⟨3, ![2048, 4, 2048]⟩
abbrev S2048 : Shape := ⟨1, ![2048]⟩
abbrev S2048x8192 : Shape := ⟨2, ![2048, 8192]⟩
abbrev S8192x2048 : Shape := ⟨2, ![8192, 2048]⟩
abbrev S1x2048 : Shape := ⟨2, ![1, 2048]⟩
abbrev S8192x8192 : Shape := ⟨2, ![8192, 8192]⟩
abbrev S1024x2048 : Shape := ⟨2, ![1024, 2048]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩
abbrev S2048x4x8192 : Shape := ⟨3, ![2048, 4, 8192]⟩

abbrev nBuf : Space → Nat
  | .hbm => 12
  | .vmem => 11
  | .smem => 0
  | _ => 0

abbrev bufTy : (tb : Table) → Fin (tcTables nBuf tb) → BufTy
  | .hbm, ⟨0, _⟩ => ⟨S2048x4x2048, .f32⟩
  | .hbm, ⟨1, _⟩ => ⟨S2048, .f32⟩
  | .hbm, ⟨2, _⟩ => ⟨S2048, .f32⟩
  | .hbm, ⟨3, _⟩ => ⟨S2048x8192, .f32⟩
  | .hbm, ⟨4, _⟩ => ⟨S8192x2048, .f32⟩
  | .hbm, ⟨5, _⟩ => ⟨S2048x8192, .bf16⟩
  | .hbm, ⟨6, _⟩ => ⟨S1x2048, .f32⟩
  | .hbm, ⟨7, _⟩ => ⟨S1x2048, .f32⟩
  | .hbm, ⟨8, _⟩ => ⟨S8192x8192, .f32⟩
  | .hbm, ⟨9, _⟩ => ⟨S8192x2048, .f32⟩
  | .hbm, ⟨10, _⟩ => ⟨S2048x4x8192, .f32⟩
  | .hbm, ⟨11, _⟩ => ⟨S2048x4x2048, .f32⟩
  | .local _ .vmem, ⟨0, _⟩ => ⟨S1024x2048, .f32⟩
  | .local _ .vmem, ⟨1, _⟩ => ⟨S1024x2048, .f32⟩
  | .local _ .vmem, ⟨2, _⟩ => ⟨S2048x512, .bf16⟩
  | .local _ .vmem, ⟨3, _⟩ => ⟨S2048x512, .bf16⟩
  | .local _ .vmem, ⟨4, _⟩ => ⟨S1x2048, .f32⟩
  | .local _ .vmem, ⟨5, _⟩ => ⟨S1x2048, .f32⟩
  | .local _ .vmem, ⟨6, _⟩ => ⟨S1024x512, .f32⟩
  | .local _ .vmem, ⟨7, _⟩ => ⟨S1024x512, .f32⟩
  | .local _ .vmem, ⟨8, _⟩ => ⟨S1024x2048, .f32⟩
  | .local _ .vmem, ⟨9, _⟩ => ⟨S1024x2048, .f32⟩
  | .local _ .vmem, ⟨10, _⟩ => ⟨S1024x2048, .bf16⟩
  | _, _ => ⟨S2048x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S2048x4x2048_S8192x2048 : S2048x4x2048.ShapeCasts S8192x2048
  bitsLt_bf16_f32 : FTy.bits .bf16 < FTy.bits .f32
  shapeCasts_S2048_S1x2048 : S2048.ShapeCasts S1x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  reduces_S1024x2048_S1024 : S1024x2048.Reduces [1] S1024
  shapeCasts_S1024_S1024x1 : S1024.ShapeCasts S1024x1
  broadcasts_S1024x1_S1024x2048 : S1024x1.Broadcasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  packedbf16_S1024x2048_S1024x2048_0_0 : (Rect.unit (s := S1024x2048) ![0, 0] S1024x2048.size inb_S1024x2048_S1024x2048_0_0).PackedRows (EltTy.packing .bf16)
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  shapeCasts_S8192x8192_S2048x4x8192 : S8192x8192.ShapeCasts S2048x4x8192
  shapeCasts_S8192x2048_S2048x4x2048 : S8192x2048.ShapeCasts S2048x4x2048
  dot_S1024x2048_S2048x512_S1024x512_1_0_0_1_n_n_wf : DotDims.WF S1024x2048 S2048x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .f32 = 32 ∨ (Rect.block (s := S8192x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x8192.size a
  hwx0_1 : ∀ i : grid0.Coords, EltTy.bits .bf16 = 32 ∨ (Rect.block (s := S2048x8192) S2048x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S8192x8192.size a
  hwx0_4 : ∀ i : grid0.Coords, EltTy.bits .f32 = 32 ∨ (Rect.block (s := S8192x8192) S1024x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x2048.size a ≤ S8192x2048.size a
  hwx0_5 : ∀ i : grid0.Coords, EltTy.bits .f32 = 32 ∨ (Rect.block (s := S8192x2048) S1024x2048.size (cc0_transform_5 i) (hinb0_5 i)).WholeWords (EltTy.packing .f32)

variable [Facts₀]

def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S1024x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S1024x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond1 i == 1#1) | ⟨_ + 6, h⟩ => absurd h (Nat.not_lt.2 (Nat.le_add_left _ _))

class Facts : Prop extends Facts₀ where

variable [Facts]
-- ==== ReferenceIdeal.lean ====
abbrev S2048x4x2048 : Shape := ⟨3, ![2048, 4, 2048]⟩
abbrev S2048 : Shape := ⟨1, ![2048]⟩
abbrev S2048x8192 : Shape := ⟨2, ![2048, 8192]⟩
abbrev S_ : Shape := ⟨0, ![]⟩
abbrev S2048x4 : Shape := ⟨2, ![2048, 4]⟩
abbrev S2048x4x1 : Shape := ⟨3, ![2048, 4, 1]⟩
abbrev S1x1x2048 : Shape := ⟨3, ![1, 1, 2048]⟩
abbrev S2048x4x8192 : Shape := ⟨3, ![2048, 4, 8192]⟩

abbrev nBuf : Space → Nat
  | .hbm => 34
  | .vmem => 0
  | .smem => 0
  | _ => 0

abbrev bufTy : (tb : Table) → Fin (tcTables nBuf tb) → BufTy
  | .hbm, ⟨0, _⟩ => ⟨S2048x4x2048, .f32⟩
  | .hbm, ⟨1, _⟩ => ⟨S2048, .f32⟩
  | .hbm, ⟨2, _⟩ => ⟨S2048, .f32⟩
  | .hbm, ⟨3, _⟩ => ⟨S2048x8192, .f32⟩
  | .hbm, ⟨4, _⟩ => ⟨S_, .f32⟩
  | .hbm, ⟨5, _⟩ => ⟨S2048x4, .f32⟩
  | .hbm, ⟨6, _⟩ => ⟨S2048x4x1, .f32⟩
  | .hbm, ⟨7, _⟩ => ⟨S_, .f32⟩
  | .hbm, ⟨8, _⟩ => ⟨S2048x4x1, .f32⟩
  | .hbm, ⟨9, _⟩ => ⟨S2048x4x1, .f32⟩
  | .hbm, ⟨10, _⟩ => ⟨S2048x4x2048, .f32⟩
  | .hbm, ⟨11, _⟩ => ⟨S2048x4x2048, .f32⟩
  | .hbm, ⟨12, _⟩ => ⟨S2048x4x2048, .f32⟩
  | .hbm, ⟨13, _⟩ => ⟨S_, .f32⟩
  | .hbm, ⟨14, _⟩ => ⟨S2048x4, .f32⟩
  | .hbm, ⟨15, _⟩ => ⟨S2048x4x1, .f32⟩
  | .hbm, ⟨16, _⟩ => ⟨S_, .f32⟩
  | .hbm, ⟨17, _⟩ => ⟨S2048x4x1, .f32⟩
  | .hbm, ⟨18, _⟩ => ⟨S2048x4x1, .f32⟩
  | .hbm, ⟨19, _⟩ => ⟨S2048x4x2048, .f32⟩
  | .hbm, ⟨20, _⟩ => ⟨S2048x4x2048, .f32⟩
  | .hbm, ⟨21, _⟩ => ⟨S_, .f32⟩
  | .hbm, ⟨22, _⟩ => ⟨S2048x4x1, .f32⟩
  | .hbm, ⟨23, _⟩ => ⟨S2048x4x1, .f32⟩
  | .hbm, ⟨24, _⟩ => ⟨S2048x4x1, .f32⟩
  | .hbm, ⟨25, _⟩ => ⟨S2048x4x2048, .f32⟩
  | .hbm, ⟨26, _⟩ => ⟨S2048x4x2048, .f32⟩
  | .hbm, ⟨27, _⟩ => ⟨S1x1x2048, .f32⟩
  | .hbm, ⟨28, _⟩ => ⟨S2048x4x2048, .f32⟩
  | .hbm, ⟨29, _⟩ => ⟨S2048x4x2048, .f32⟩
  | .hbm, ⟨30, _⟩ => ⟨S1x1x2048, .f32⟩
  | .hbm, ⟨31, _⟩ => ⟨S2048x4x2048, .f32⟩
  | .hbm, ⟨32, _⟩ => ⟨S2048x4x2048, .f32⟩
  | .hbm, ⟨33, _⟩ => ⟨S2048x4x8192, .f32⟩
  | _, _ => ⟨S2048x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]

class Facts₀ : Prop where
  reducesTo_S2048x4x2048_S2048x4_d2 : S2048x4x2048.ReducesTo [2] S2048x4
  h_S_ : 0 < S_.numel
  bcast_S2048x4_S2048x4x1_0_1 : S2048x4.BroadcastsInDim S2048x4x1 (![0, 1] : Fin 2 → Fin S2048x4x1.rank)
  bcast_S_S2048x4x1 : S_.BroadcastsInDim S2048x4x1 (![] : Fin 0 → Fin S2048x4x1.rank)
  bcast_S2048x4x1_S2048x4x2048_0_1_2 : S2048x4x1.BroadcastsInDim S2048x4x2048 (![0, 1, 2] : Fin 3 → Fin S2048x4x2048.rank)
  bcast_S2048_S1x1x2048_2 : S2048.BroadcastsInDim S1x1x2048 (![2] : Fin 1 → Fin S1x1x2048.rank)
  bcast_S1x1x2048_S2048x4x2048_0_1_2 : S1x1x2048.BroadcastsInDim S2048x4x2048 (![0, 1, 2] : Fin 3 → Fin S2048x4x2048.rank)
  dot_S2048x4x2048_S2048x8192_S2048x4x8192_2_0_01_1_n_n_wf : DotDims.WF S2048x4x2048 S2048x8192 S2048x4x8192 [2] [0] [0, 1] [1] [] []

variable [Facts₀]

def dot_S2048x4x2048_S2048x8192_S2048x4x8192_2_0_01_1_n_n : DotDims S2048x4x2048 S2048x8192 S2048x4x8192 where
  lhsContracting := [2]
  rhsContracting := [0]
  lhsNonContracting := [0, 1]
  rhsNonContracting := [1]
  lhsBatch := []
  rhsBatch := []
  wf := dot_S2048x4x2048_S2048x8192_S2048x4x8192_2_0_01_1_n_n_wf

class Facts : Prop extends Facts₀ where

variable [Facts]
-- ==== Proof.BodyDataBits.lean ====
/-
  The proof data of the layer-norm + dense kernel's pipeline, for any float instance.

  The grid has 8 × 16 points, the second coordinate moving fastest: point t is in row-tile t / 16 and column-tile t % 16.
  At the first point of a row-tile (t % 16 = 0) the body normalises the 1024 × 2048 row-tile of the input, stores the
  result into the second output's staging buffer and a half-precision copy into a scratch buffer; at every point it
  multiplies the scratch buffer's contents with the point's 2048 × 512 tile of the weights and stores the product into
  the first output's staging buffer.  So at every point of a row-tile the scratch buffer holds the normalised row-tile
  of that row-tile's FIRST point, and so does the second output's staging buffer, which the body leaves untouched at
  the fifteen later points and which is written back to the array at the last of them.
-/
import proofs.«113714_g3092376453257_feedfinal_216_2_alg».proof.Proof.Gen.Kernel.Frame
import proofs.«113714_g3092376453257_feedfinal_216_2_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule -/

/-- The body's one branch is taken exactly at the first point of each row-tile. -/
theorem first_iff : ∀ t : Fin cfg0.N, k0_cond1 (grid0.coords t) = 1#1 ↔ t.val % 16 = 0 :=
  (by decide +kernel : ∀ t : Fin grid0.N, k0_cond1 (grid0.coords t) = 1#1 ↔ t.val % 16 = 0)

/-- The inputs and the first output are stored or read at every point. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel

/-- The second output is stored only at the first point of a row-tile. -/
theorem live5 : ∀ t : Fin cfg0.N, t.val % 16 = 0 → cfg0.idle 5 (grid0.coords t) = false :=
  (by decide +kernel : ∀ t : Fin grid0.N, t.val % 16 = 0 → cfg0.idle 5 (grid0.coords t) = false)
theorem idle5 : ∀ t : Fin cfg0.N, ¬t.val % 16 = 0 → cfg0.idle 5 (grid0.coords t) = true :=
  (by decide +kernel : ∀ t : Fin grid0.N, ¬t.val % 16 = 0 → cfg0.idle 5 (grid0.coords t) = true)

/-! ## The staging memrefs at a point -/

abbrev ms0 (t : Fin cfg0.N) : Memref sig .tc .vmem S1024x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x2048 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x2048 .f32 := win0_5.stage (cfg0.slots t 5)
abbrev hs5 (t : Fin cfg0.N) : (ms5 t).IsWhole := hstage0_5 ((cfg0.slots t 5).cast nbuf0_5)
/-- The scratch buffer, whole. -/
abbrev scr : Memref sig .tc .vmem S1024x2048 .bf16 := Memref.whole cc0_scratch0

/-- What the region is entered with beside the windows: the scratch buffer at some contents and the generator register. -/
theorem entry_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

/-! ## What the buffers hold, point by point -/

/-- The first point of the row-tile that point `t` lies in. -/
def rowStart (t : Fin cfg0.N) : Fin cfg0.N := ⟨t.val / 16 * 16, lt_of_le_of_lt (Nat.div_mul_le_self _ _) t.isLt⟩

theorem rowStart_of_first (t : Fin cfg0.N) (h : t.val % 16 = 0) : rowStart t = t :=
  Fin.ext (by show t.val / 16 * 16 = t.val; omega)

/-- The point before `t`. -/
abbrev prev (t : Fin cfg0.N) : Fin cfg0.N := ⟨t.val - 1, Nat.lt_of_le_of_lt (Nat.sub_le _ _) t.isLt⟩

/-- A point that is not the first of its row-tile lies in the row-tile of the point before it. -/
theorem rowStart_prev (t : Fin cfg0.N) (h : ¬t.val % 16 = 0) : rowStart t = rowStart (prev t) :=
  Fin.ext (by show t.val / 16 * 16 = (t.val - 1) / 16 * 16; omega)

/-- The normalised row-tile of point `t`'s row-tile: the body's first stored value of the blocks at the row-tile's first point. -/
def rowNorm (c : Dev nD) (t : Fin cfg0.N) : Vec F S1024x2048 .f32 :=
  k0_pay1 (iblk m c 0 (rowStart t)) (iblk m c 2 (rowStart t)) (iblk m c 3 (rowStart t))

/-- Its half-precision copy, which the scratch buffer carries through the row-tile. -/
def rowNormHalf (c : Dev nD) (t : Fin cfg0.N) : Vec F S1024x2048 .bf16 :=
  k0_pay2 (iblk m c 0 (rowStart t)) (iblk m c 2 (rowStart t)) (iblk m c 3 (rowStart t))

/-- The product tile of point `t`: the carried copy times the point's tile of the weights. -/
def tileProduct (c : Dev nD) (t : Fin cfg0.N) : Vec F S1024x512 .f32 :=
  k0_pay3 (rowNormHalf m c t) (iblk m c 1 t)

theorem rowNorm_prev (c : Dev nD) (t : Fin cfg0.N) (h : ¬t.val % 16 = 0) : rowNorm m c t = rowNorm m c (prev t) := by
  unfold rowNorm; rw [rowStart_prev t h]

theorem rowNormHalf_prev (c : Dev nD) (t : Fin cfg0.N) (h : ¬t.val % 16 = 0) : rowNormHalf m c t = rowNormHalf m c (prev t) := by
  unfold rowNormHalf; rw [rowStart_prev t h]

/-- The invariant before position `n`: at the region's entry the scratch buffer holds anything; after point `n - 1`
    it holds the half-precision normalised row-tile of that point's row-tile. -/
def carried (c : Dev nD) : (n : ℕ) → n ≤ cfg0.N → sProp 𝕄
  | 0, _ => Pipeline.ΦA spec0 c
  | n + 1, hn => iprop(iprop(owns (c : Thread nD τ) scr fullShare (rowNormHalf m c ⟨n, hn⟩)) ∗ (∃ r, prngReg c r))

theorem carried_zero (c : Dev nD) (n : ℕ) (h : n ≤ cfg0.N) (hz : n = 0) : carried m c n h = Pipeline.ΦA spec0 c := by
  subst hz; rfl

theorem carried_succ (c : Dev nD) (n : ℕ) (hn : n < cfg0.N) :
    carried m c (n + 1) hn = iprop(iprop(owns (c : Thread nD τ) scr fullShare (rowNormHalf m c ⟨n, hn⟩)) ∗ (∃ r, prngReg c r)) := rfl

theorem carried_pos (c : Dev nD) (n : ℕ) (h : n ≤ cfg0.N) (hz : n ≠ 0) :
    carried m c n h = iprop(iprop(owns (c : Thread nD τ) scr fullShare (rowNormHalf m c ⟨n - 1, by omega⟩)) ∗ (∃ r, prngReg c r)) := by
  cases n with
  | zero => exact absurd rfl hz
  | succ n => rfl

/-! ## The proof data -/

/-- The arrays as the region finds them; after the body at point `t` each input's buffer at its block, the first output's
    at the product tile, the second output's at the normalised row-tile; the scratch buffer carried in the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => tileProduct m c t
    | ⟨5, _⟩ => rowNorm m c t
  Φ t := carried m c t.val (Nat.le_of_lt_succ t.isLt)
  q _ := fullShare
  owed _ := 0

theorem A_eq (c : Dev nD) (w : Fin cfg0.W) : (dats m 0 c).A w = V m c (Pipeline.arrRef spec0 w) := by
  dsimp only [dats]

theorem carried_castSucc (c : Dev nD) (t : Fin cfg0.N) :
    (dats m 0 c).Φ t.castSucc = carried m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = tileProduct m c t := by dsimp only [dats]
theorem after5 (c : Dev nD) (t : Fin cfg0.N) : (dats m 0 c).after 5 t = rowNorm m c t := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- The second output's staging buffer, at a point that is not the first of its row-tile, still holds the normalised
    row-tile stored at the row-tile's first point: it is not written back before the row-tile's last point, and every
    point between leaves it as it found it.  By induction on the point. -/
theorem before5 (c : Dev nD) (d) : ∀ (n : ℕ) (t : Fin cfg0.N), t.val = n → ¬t.val % 16 = 0 →
    (dats m 0 c).before 5 t d = rowNorm m c t
  | 0, t, ht, h => absurd (by rw [ht]) h
  | n + 1, t, ht, h => by
    have hN : t.val < 128 := lt_of_lt_of_eq t.isLt (show cfg0.N = 128 from N_0)
    rw [(dats m 0 c).before_of_pos 5 t (by omega) ((cfg0.win 5).fetch_out rfl t),
      if_neg (fun hf => by have := (flush0_5 _).mp hf; dsimp only at this; omega)]
    unfold Dat.left
    by_cases h0 : (prev t).val % 16 = 0
    · rw [live5 (prev t) h0]
      dsimp only
      unfold Dat.kept
      rw [Pipeline.fill_of_clip_none 5 _ (fun _ => rfl) d ((dats m 0 c).after 5 (prev t)), Window.fill_cut, after5]
      exact (rowNorm_prev m c t h).symm
    · rw [idle5 (prev t) h0]
      dsimp only
      rw [before5 c d n (prev t) (by show t.val - 1 = n; omega) h0]
      exact (rowNorm_prev m c t h).symm

end Cert.Kernel.Body

end
-- ==== Proof.BodyRunBits.lean ====
/-
  The kernel body on any whole staging buffers, in its two cases, for any float instance.

  When the branch is taken the body normalises the row-tile it loads, stores the result into the second output's buffer
  and its half-precision copy into the scratch buffer, then loads the copy back, multiplies it with the tile of the
  weights and stores the product into the first output's buffer.  Otherwise it only loads the scratch buffer, as it
  finds it, multiplies and stores; the second output's buffer and the scratch buffer are left as they were.
  Every load and every store goes through the whole buffer, so a load reads the contents and a store leaves its value.
-/
import proofs.«113714_g3092376453257_feedfinal_216_2_alg».proof.Proof.Gen.Kernel.Frame
import proofs.«113714_g3092376453257_feedfinal_216_2_alg».proof.Proof.Gen.Kernel.Skeleton
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of every load and store of the body: zero on both axes. -/
theorem zeros2 : (![0, 0] : Fin 2 → Nat) = fun _ => 0 := funext fun a => by fin_cases a <;> rfl

set_option maxHeartbeats 2000000 in
/-- The body where the branch is taken: from the inputs' buffers at `x0 … x3` and the other three at anything, it leaves
    the normalised row-tile, its half-precision copy, and the copy's product with the weights' tile. -/
theorem firstRun (c : Dev nD) (i : grid0.Coords) (arg2 : Memref sig .tc .vmem S1024x2048 .f32) (harg2 : arg2.IsWhole) (arg3 : Memref sig .tc .vmem S2048x512 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1024x512 .f32) (harg6 : arg6.IsWhole) (arg7 : Memref sig .tc .vmem S1024x2048 .f32) (harg7 : arg7.IsWhole) (arg8 : Memref sig .tc .vmem S1024x2048 .bf16) (harg8 : arg8.IsWhole) (hc0 : k0_cond1 i = 1#1)
    (x0 : Vec F S1024x2048 .f32) (x1 : Vec F S2048x512 .bf16) (x2 : Vec F S1x2048 .f32) (x3 : Vec F S1x2048 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay3 (k0_pay2 x0 x2 x3) x1) ∗ owns (c : Thread nD τ) arg7 fullShare (k0_pay1 x0 x2 x3) ∗ owns (c : Thread nD τ) arg8 fullShare (k0_pay2 x0 x2 x3)) -∗ K ⟨⟩))
          ⊢ wp frame (wpE (defs₀ (F := F)) Variants.none c none) E (cc0__ln_dense_kernel i arg2 harg2 arg3 harg3 arg4 harg4 arg5 harg5 arg6 harg6 arg7 harg7 arg8 harg8) K := by
    intro E K
    simp only [cc0__ln_dense_kernel_eq_skeleton]; unfold cc0__ln_dense_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      rw [View.read_writes_eq_canon _ _ _ (fun y => ⟨_, List.mem_singleton_self _, View.mem_set_unit_zero zeros2 inb_S1024x512_S1024x512_0_0 y⟩), View.canon_unit_zero zeros2]
      sl_unfold_run_names
      rw [View.readCov_unit_zero _ zeros2]
      simp only [View.readAt_eq_ld, harg2.read_unread, harg3.read_unread, harg4.read_unread, harg5.read_unread, View.ld_unit_zero (S := S1024x2048) zeros2, View.ld_unit_zero (S := S1x2048) zeros2, View.ld_unit_zero (S := S2048x512) zeros2]
    isplitl [H5]
    · iexists _; isplitr; swap; · iexact H5
      ipureintro
      rw [View.read_writes_eq_canon _ _ _ (fun y => ⟨_, List.mem_singleton_self _, View.mem_set_unit_zero zeros2 inb_S1024x2048_S1024x2048_0_0 y⟩), View.canon_unit_zero zeros2]
      simp only [View.readAt_eq_ld, harg2.read_unread, harg4.read_unread, harg5.read_unread, View.ld_unit_zero (S := S1024x2048) zeros2, View.ld_unit_zero (S := S1x2048) zeros2]
    iexists _; isplitr; swap; · iexact HS0
    ipureintro
    sl_unfold_run_names
    rw [View.read_writes_eq_canon _ _ _ (fun y => ⟨_, List.mem_singleton_self _, View.mem_set_unit_zero zeros2 inb_S1024x2048_S1024x2048_0_0 y⟩), View.canon_unit_zero zeros2]
    simp only [View.readAt_eq_ld, harg2.read_unread, harg4.read_unread, harg5.read_unread, View.ld_unit_zero (S := S1024x2048) zeros2, View.ld_unit_zero (S := S1x2048) zeros2]

set_option maxHeartbeats 2000000 in
/-- The body where the branch is not taken: the scratch buffer at `xs` and the second output's buffer at `x5` are left as
    found, and the first output's buffer takes the product of `xs` with the weights' tile. -/
theorem laterRun (c : Dev nD) (i : grid0.Coords) (arg2 : Memref sig .tc .vmem S1024x2048 .f32) (harg2 : arg2.IsWhole) (arg3 : Memref sig .tc .vmem S2048x512 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1024x512 .f32) (harg6 : arg6.IsWhole) (arg7 : Memref sig .tc .vmem S1024x2048 .f32) (harg7 : arg7.IsWhole) (arg8 : Memref sig .tc .vmem S1024x2048 .bf16) (harg8 : arg8.IsWhole) (hc0 : ¬k0_cond1 i = 1#1)
    (x0 : Vec F S1024x2048 .f32) (x1 : Vec F S2048x512 .bf16) (x2 : Vec F S1x2048 .f32) (x3 : Vec F S1x2048 .f32)
    (x5 : Vec F S1024x2048 .f32) (xs : Vec F S1024x2048 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare x5 ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay3 xs x1) ∗ owns (c : Thread nD τ) arg7 fullShare x5 ∗ owns (c : Thread nD τ) arg8 fullShare xs) -∗ K ⟨⟩))
          ⊢ wp frame (wpE (defs₀ (F := F)) Variants.none c none) E (cc0__ln_dense_kernel i arg2 harg2 arg3 harg3 arg4 harg4 arg5 harg5 arg6 harg6 arg7 harg7 arg8 harg8) K := by
    intro E K
    simp only [cc0__ln_dense_kernel_eq_skeleton]; unfold cc0__ln_dense_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3
    obtain rfl := harg7.eq_unread hf5; obtain rfl := harg8.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      rw [View.read_writes_eq_canon _ _ _ (fun y => ⟨_, List.mem_singleton_self _, View.mem_set_unit_zero zeros2 inb_S1024x512_S1024x512_0_0 y⟩), View.canon_unit_zero zeros2]
      simp only [View.readAt_eq_ld, harg3.read_unread, harg8.read_unread, View.ld_unit_zero (S := S1024x2048) zeros2, View.ld_unit_zero (S := S2048x512) zeros2]
    isplitl [H5]
    · iexists _; isplitr; · ipureintro; exact harg7.read_unread _
      iexact H5
    iexists _; isplitr; · ipureintro; exact harg8.read_unread _
    iexact HS0

end Cert.Kernel.Body

end
-- ==== Proof.BodySoundBits.lean ====
/-
  The body obligation of the layer-norm + dense kernel's pipeline and the run of the whole program, for any float instance.

  At the first point of a row-tile the body finds the scratch buffer at anything (at the very first point) or at the
  previous row-tile's copy, and leaves it at this row-tile's; at the fifteen later points it finds and leaves this
  row-tile's copy.  The second output's staging buffer is stored at the first point, left untouched afterwards, and at
  the row-tile's last point, where it is written back, it still holds what the first point stored.
-/
import proofs.«113714_g3092376453257_feedfinal_216_2_alg».proof.Proof.BodyDataBits
import proofs.«113714_g3092376453257_feedfinal_216_2_alg».proof.Proof.BodyRunBits

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 1600000 in
/-- The body at any point, by the point's place in its row-tile. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = carried m c (t.val + 1) t.isLt from rfl, carried_succ]
  have hN : t.val < 128 := lt_of_lt_of_eq t.isLt (show cfg0.N = 128 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [carried_castSucc]
  unfold tileProduct
  by_cases h0 : t.val % 16 = 0
  · -- the first point of a row-tile: the row-tile is normalised and stored
    rw [show (dats m 0 c).leavesExact 5 t = owns (c : Thread nD τ) (ms5 t) fullShare ((dats m 0 c).after 5 t) from by
      unfold Dat.leavesExact; rw [live5 t h0], after5]
    unfold rowNorm rowNormHalf
    rw [rowStart_of_first t h0]
    by_cases hz : t.val = 0
    · rw [carried_zero m c _ _ hz, entry_eq]
      iintro ⟨⟨HS0, Hg⟩, Ho, ⟨%d0, H0⟩, ⟨%d1, H1⟩, ⟨%d2, H2⟩, ⟨%d3, H3⟩, ⟨%d4, H4⟩, ⟨%d5, H5⟩⟩
      iapply (firstRun c (grid0.coords t) _ _ _ _ _ _ _ _ _ _ _ _ _ _ ((first_iff t).mpr h0) (iblk m c 0 t) (iblk m c 1 t) (iblk m c 2 t) (iblk m c 3 t) Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, H4, H5, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [carried_pos m c _ _ hz]
      iintro ⟨⟨HS0, Hg⟩, Ho, ⟨%d0, H0⟩, ⟨%d1, H1⟩, ⟨%d2, H2⟩, ⟨%d3, H3⟩, ⟨%d4, H4⟩, ⟨%d5, H5⟩⟩
      iapply (firstRun c (grid0.coords t) _ _ _ _ _ _ _ _ _ _ _ _ _ _ ((first_iff t).mpr h0) (iblk m c 0 t) (iblk m c 1 t) (iblk m c 2 t) (iblk m c 3 t) Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexists _; iexact HS0
      iintro ⟨H0, H1, H2, H3, H4, H5, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      iexact H5
  · -- a later point: the scratch buffer and the second output's buffer are found as the row-tile's first point left them
    rw [carried_pos m c _ _ (by omega : t.val ≠ 0), ← rowNormHalf_prev m c t h0]
    simp only [fun d => before5 m c d t.val t rfl h0]
    by_cases hf : t.val % 16 = 15
    · rw [show (dats m 0 c).leavesExact 5 t = owns (c : Thread nD τ) (ms5 t) fullShare ((dats m 0 c).after 5 t) from by
        unfold Dat.leavesExact; rw [idle5 t h0, (flush0_5 t).mpr hf], after5]
      iintro ⟨⟨HS0, Hg⟩, Ho, ⟨%d0, H0⟩, ⟨%d1, H1⟩, ⟨%d2, H2⟩, ⟨%d3, H3⟩, ⟨%d4, H4⟩, ⟨%d5, H5⟩⟩
      iapply (laterRun c (grid0.coords t) _ _ _ _ _ _ _ _ _ _ _ _ _ _ (fun h => h0 ((first_iff t).mp h)) (iblk m c 0 t) (iblk m c 1 t) (iblk m c 2 t) (iblk m c 3 t) (rowNorm m c t) (rowNormHalf m c t) Set.univ _)
      isplitl [H0]; · iexact H0
      isplitl [H1]; · iexact H1
      isplitl [H2]; · iexact H2
      isplitl [H3]; · iexact H3
      isplitl [H4]; · iexists _; iexact H4
      isplitl [H5]; · iexact H5
      isplitl [HS0]; · iexact HS0
      iintro ⟨H0, H1, H2, H3, H4, H5, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dats m 0 c) 5 t (idle5 t h0) (Bool.eq_false_iff.mpr fun h => hf ((flush0_5 t).mp h))]
      simp only [fun d => before5 m c d t.val t rfl h0]
      iintro ⟨⟨HS0, Hg⟩, Ho, ⟨%d0, H0⟩, ⟨%d1, H1⟩, ⟨%d2, H2⟩, ⟨%d3, H3⟩, ⟨%d4, H4⟩, ⟨%d5, H5⟩⟩
      iapply (laterRun c (grid0.coords t) _ _ _ _ _ _ _ _ _ _ _ _ _ _ (fun h => h0 ((first_iff t).mp h)) (iblk m c 0 t) (iblk m c 1 t) (iblk m c 2 t) (iblk m c 3 t) (rowNorm m c t) (rowNormHalf m c t) Set.univ _)
      isplitl [H0]; · iexact H0
      isplitl [H1]; · iexact H1
      isplitl [H2]; · iexact H2
      isplitl [H3]; · iexact H3
      isplitl [H4]; · iexists _; iexact H4
      isplitl [H5]; · iexact H5
      isplitl [HS0]; · iexact HS0
      iintro ⟨H0, H1, H2, H3, H4, H5, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      iexists d5; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem entry_inv (c : Dev nD) : Pipeline.ΦA spec0 c ⊢ (dats m 0 c).Φ 0 := by
  rw [show (dats m 0 c).Φ 0 = carried m c 0 (Nat.zero_le _) from rfl, carried_zero m c 0 _ rfl]
  try exact Idealize.SL.BI.Entails.refl _

/-- After the last point the invariant gives the scratch buffer back at some contents. -/
theorem exit_inv (c : Dev nD) : (dats m 0 c).Φ (Fin.last cfg0.N) ⊢ Pipeline.ΦA spec0 c := by
  rw [show (dats m 0 c).Φ (Fin.last cfg0.N) = carried m c (Fin.last cfg0.N).val (Nat.le_of_lt_succ (Fin.last cfg0.N).isLt) from rfl,
    carried_pos m c _ _ (by rw [Fin.val_last]; have : cfg0.N = 128 := N_0; omega), entry_eq]
  iintro ⟨HS0, Hg⟩
  isplitl [HS0]
  · iexists _; iexact HS0
  iexact Hg

set_option backward.isDefEq.respectTransparency.types false in
/-- Every weakly fair execution of the program terminates; every array of the pipeline ends at what the library computes
    from the proof data, every other unscoped buffer as the host operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := entry_inv m) (hout := exit_inv m)

/-- The argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body

end
-- ==== Proof.BodyDataIdeal.lean ====
/-
  The proof data of the layer-norm + dense kernel's pipeline, for any float instance.

  The grid has 8 × 16 points, the second coordinate moving fastest: point t is in row-tile t / 16 and column-tile t % 16.
  At the first point of a row-tile (t % 16 = 0) the body normalises the 1024 × 2048 row-tile of the input, stores the
  result into the second output's staging buffer and a half-precision copy into a scratch buffer; at every point it
  multiplies the scratch buffer's contents with the point's 2048 × 512 tile of the weights and stores the product into
  the first output's staging buffer.  So at every point of a row-tile the scratch buffer holds the normalised row-tile
  of that row-tile's FIRST point, and so does the second output's staging buffer, which the body leaves untouched at
  the fifteen later points and which is written back to the array at the last of them.
-/
import proofs.«113714_g3092376453257_feedfinal_216_2_alg».proof.Proof.Gen.KernelIdeal.Frame
import proofs.«113714_g3092376453257_feedfinal_216_2_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule -/

/-- The body's one branch is taken exactly at the first point of each row-tile. -/
theorem first_iff : ∀ t : Fin cfg0.N, k0_cond1 (grid0.coords t) = 1#1 ↔ t.val % 16 = 0 :=
  (by decide +kernel : ∀ t : Fin grid0.N, k0_cond1 (grid0.coords t) = 1#1 ↔ t.val % 16 = 0)

/-- The inputs and the first output are stored or read at every point. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel

/-- The second output is stored only at the first point of a row-tile. -/
theorem live5 : ∀ t : Fin cfg0.N, t.val % 16 = 0 → cfg0.idle 5 (grid0.coords t) = false :=
  (by decide +kernel : ∀ t : Fin grid0.N, t.val % 16 = 0 → cfg0.idle 5 (grid0.coords t) = false)
theorem idle5 : ∀ t : Fin cfg0.N, ¬t.val % 16 = 0 → cfg0.idle 5 (grid0.coords t) = true :=
  (by decide +kernel : ∀ t : Fin grid0.N, ¬t.val % 16 = 0 → cfg0.idle 5 (grid0.coords t) = true)

/-! ## The staging memrefs at a point -/

abbrev ms0 (t : Fin cfg0.N) : Memref sig .tc .vmem S1024x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x2048 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x2048 .f32 := win0_5.stage (cfg0.slots t 5)
abbrev hs5 (t : Fin cfg0.N) : (ms5 t).IsWhole := hstage0_5 ((cfg0.slots t 5).cast nbuf0_5)
/-- The scratch buffer, whole. -/
abbrev scr : Memref sig .tc .vmem S1024x2048 .bf16 := Memref.whole cc0_scratch0

/-- What the region is entered with beside the windows: the scratch buffer at some contents and the generator register. -/
theorem entry_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

/-! ## What the buffers hold, point by point -/

/-- The first point of the row-tile that point `t` lies in. -/
def rowStart (t : Fin cfg0.N) : Fin cfg0.N := ⟨t.val / 16 * 16, lt_of_le_of_lt (Nat.div_mul_le_self _ _) t.isLt⟩

theorem rowStart_of_first (t : Fin cfg0.N) (h : t.val % 16 = 0) : rowStart t = t :=
  Fin.ext (by show t.val / 16 * 16 = t.val; omega)

/-- The point before `t`. -/
abbrev prev (t : Fin cfg0.N) : Fin cfg0.N := ⟨t.val - 1, Nat.lt_of_le_of_lt (Nat.sub_le _ _) t.isLt⟩

/-- A point that is not the first of its row-tile lies in the row-tile of the point before it. -/
theorem rowStart_prev (t : Fin cfg0.N) (h : ¬t.val % 16 = 0) : rowStart t = rowStart (prev t) :=
  Fin.ext (by show t.val / 16 * 16 = (t.val - 1) / 16 * 16; omega)

/-- The normalised row-tile of point `t`'s row-tile: the body's first stored value of the blocks at the row-tile's first point. -/
def rowNorm (c : Dev nD) (t : Fin cfg0.N) : Vec F S1024x2048 .f32 :=
  k0_pay1 (iblk m c 0 (rowStart t)) (iblk m c 2 (rowStart t)) (iblk m c 3 (rowStart t))

/-- Its half-precision copy, which the scratch buffer carries through the row-tile. -/
def rowNormHalf (c : Dev nD) (t : Fin cfg0.N) : Vec F S1024x2048 .bf16 :=
  k0_pay2 (iblk m c 0 (rowStart t)) (iblk m c 2 (rowStart t)) (iblk m c 3 (rowStart t))

/-- The product tile of point `t`: the carried copy times the point's tile of the weights. -/
def tileProduct (c : Dev nD) (t : Fin cfg0.N) : Vec F S1024x512 .f32 :=
  k0_pay3 (rowNormHalf m c t) (iblk m c 1 t)

theorem rowNorm_prev (c : Dev nD) (t : Fin cfg0.N) (h : ¬t.val % 16 = 0) : rowNorm m c t = rowNorm m c (prev t) := by
  unfold rowNorm; rw [rowStart_prev t h]

theorem rowNormHalf_prev (c : Dev nD) (t : Fin cfg0.N) (h : ¬t.val % 16 = 0) : rowNormHalf m c t = rowNormHalf m c (prev t) := by
  unfold rowNormHalf; rw [rowStart_prev t h]

/-- The invariant before position `n`: at the region's entry the scratch buffer holds anything; after point `n - 1`
    it holds the half-precision normalised row-tile of that point's row-tile. -/
def carried (c : Dev nD) : (n : ℕ) → n ≤ cfg0.N → sProp 𝕄
  | 0, _ => Pipeline.ΦA spec0 c
  | n + 1, hn => iprop(iprop(owns (c : Thread nD τ) scr fullShare (rowNormHalf m c ⟨n, hn⟩)) ∗ (∃ r, prngReg c r))

theorem carried_zero (c : Dev nD) (n : ℕ) (h : n ≤ cfg0.N) (hz : n = 0) : carried m c n h = Pipeline.ΦA spec0 c := by
  subst hz; rfl

theorem carried_succ (c : Dev nD) (n : ℕ) (hn : n < cfg0.N) :
    carried m c (n + 1) hn = iprop(iprop(owns (c : Thread nD τ) scr fullShare (rowNormHalf m c ⟨n, hn⟩)) ∗ (∃ r, prngReg c r)) := rfl

theorem carried_pos (c : Dev nD) (n : ℕ) (h : n ≤ cfg0.N) (hz : n ≠ 0) :
    carried m c n h = iprop(iprop(owns (c : Thread nD τ) scr fullShare (rowNormHalf m c ⟨n - 1, by omega⟩)) ∗ (∃ r, prngReg c r)) := by
  cases n with
  | zero => exact absurd rfl hz
  | succ n => rfl

/-! ## The proof data -/

/-- The arrays as the region finds them; after the body at point `t` each input's buffer at its block, the first output's
    at the product tile, the second output's at the normalised row-tile; the scratch buffer carried in the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => tileProduct m c t
    | ⟨5, _⟩ => rowNorm m c t
  Φ t := carried m c t.val (Nat.le_of_lt_succ t.isLt)
  q _ := fullShare
  owed _ := 0

theorem A_eq (c : Dev nD) (w : Fin cfg0.W) : (dats m 0 c).A w = V m c (Pipeline.arrRef spec0 w) := by
  dsimp only [dats]

theorem carried_castSucc (c : Dev nD) (t : Fin cfg0.N) :
    (dats m 0 c).Φ t.castSucc = carried m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = tileProduct m c t := by dsimp only [dats]
theorem after5 (c : Dev nD) (t : Fin cfg0.N) : (dats m 0 c).after 5 t = rowNorm m c t := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- The second output's staging buffer, at a point that is not the first of its row-tile, still holds the normalised
    row-tile stored at the row-tile's first point: it is not written back before the row-tile's last point, and every
    point between leaves it as it found it.  By induction on the point. -/
theorem before5 (c : Dev nD) (d) : ∀ (n : ℕ) (t : Fin cfg0.N), t.val = n → ¬t.val % 16 = 0 →
    (dats m 0 c).before 5 t d = rowNorm m c t
  | 0, t, ht, h => absurd (by rw [ht]) h
  | n + 1, t, ht, h => by
    have hN : t.val < 128 := lt_of_lt_of_eq t.isLt (show cfg0.N = 128 from N_0)
    rw [(dats m 0 c).before_of_pos 5 t (by omega) ((cfg0.win 5).fetch_out rfl t),
      if_neg (fun hf => by have := (flush0_5 _).mp hf; dsimp only at this; omega)]
    unfold Dat.left
    by_cases h0 : (prev t).val % 16 = 0
    · rw [live5 (prev t) h0]
      dsimp only
      unfold Dat.kept
      rw [Pipeline.fill_of_clip_none 5 _ (fun _ => rfl) d ((dats m 0 c).after 5 (prev t)), Window.fill_cut, after5]
      exact (rowNorm_prev m c t h).symm
    · rw [idle5 (prev t) h0]
      dsimp only
      rw [before5 c d n (prev t) (by show t.val - 1 = n; omega) h0]
      exact (rowNorm_prev m c t h).symm

end Cert.KernelIdeal.Body

end
-- ==== Proof.BodyRunIdeal.lean ====
/-
  The kernel body on any whole staging buffers, in its two cases, for any float instance.

  When the branch is taken the body normalises the row-tile it loads, stores the result into the second output's buffer
  and its half-precision copy into the scratch buffer, then loads the copy back, multiplies it with the tile of the
  weights and stores the product into the first output's buffer.  Otherwise it only loads the scratch buffer, as it
  finds it, multiplies and stores; the second output's buffer and the scratch buffer are left as they were.
  Every load and every store goes through the whole buffer, so a load reads the contents and a store leaves its value.
-/
import proofs.«113714_g3092376453257_feedfinal_216_2_alg».proof.Proof.Gen.KernelIdeal.Frame
import proofs.«113714_g3092376453257_feedfinal_216_2_alg».proof.Proof.Gen.KernelIdeal.Skeleton
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of every load and store of the body: zero on both axes. -/
theorem zeros2 : (![0, 0] : Fin 2 → Nat) = fun _ => 0 := funext fun a => by fin_cases a <;> rfl

set_option maxHeartbeats 2000000 in
/-- The body where the branch is taken: from the inputs' buffers at `x0 … x3` and the other three at anything, it leaves
    the normalised row-tile, its half-precision copy, and the copy's product with the weights' tile. -/
theorem firstRun (c : Dev nD) (i : grid0.Coords) (arg2 : Memref sig .tc .vmem S1024x2048 .f32) (harg2 : arg2.IsWhole) (arg3 : Memref sig .tc .vmem S2048x512 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1024x512 .f32) (harg6 : arg6.IsWhole) (arg7 : Memref sig .tc .vmem S1024x2048 .f32) (harg7 : arg7.IsWhole) (arg8 : Memref sig .tc .vmem S1024x2048 .bf16) (harg8 : arg8.IsWhole) (hc0 : k0_cond1 i = 1#1)
    (x0 : Vec F S1024x2048 .f32) (x1 : Vec F S2048x512 .bf16) (x2 : Vec F S1x2048 .f32) (x3 : Vec F S1x2048 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay3 (k0_pay2 x0 x2 x3) x1) ∗ owns (c : Thread nD τ) arg7 fullShare (k0_pay1 x0 x2 x3) ∗ owns (c : Thread nD τ) arg8 fullShare (k0_pay2 x0 x2 x3)) -∗ K ⟨⟩))
          ⊢ wp frame (wpE (defs₀ (F := F)) Variants.none c none) E (cc0__ln_dense_kernel i arg2 harg2 arg3 harg3 arg4 harg4 arg5 harg5 arg6 harg6 arg7 harg7 arg8 harg8) K := by
    intro E K
    simp only [cc0__ln_dense_kernel_eq_skeleton]; unfold cc0__ln_dense_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      rw [View.read_writes_eq_canon _ _ _ (fun y => ⟨_, List.mem_singleton_self _, View.mem_set_unit_zero zeros2 inb_S1024x512_S1024x512_0_0 y⟩), View.canon_unit_zero zeros2]
      sl_unfold_run_names
      rw [View.readCov_unit_zero _ zeros2]
      simp only [View.readAt_eq_ld, harg2.read_unread, harg3.read_unread, harg4.read_unread, harg5.read_unread, View.ld_unit_zero (S := S1024x2048) zeros2, View.ld_unit_zero (S := S1x2048) zeros2, View.ld_unit_zero (S := S2048x512) zeros2]
    isplitl [H5]
    · iexists _; isplitr; swap; · iexact H5
      ipureintro
      rw [View.read_writes_eq_canon _ _ _ (fun y => ⟨_, List.mem_singleton_self _, View.mem_set_unit_zero zeros2 inb_S1024x2048_S1024x2048_0_0 y⟩), View.canon_unit_zero zeros2]
      simp only [View.readAt_eq_ld, harg2.read_unread, harg4.read_unread, harg5.read_unread, View.ld_unit_zero (S := S1024x2048) zeros2, View.ld_unit_zero (S := S1x2048) zeros2]
    iexists _; isplitr; swap; · iexact HS0
    ipureintro
    sl_unfold_run_names
    rw [View.read_writes_eq_canon _ _ _ (fun y => ⟨_, List.mem_singleton_self _, View.mem_set_unit_zero zeros2 inb_S1024x2048_S1024x2048_0_0 y⟩), View.canon_unit_zero zeros2]
    simp only [View.readAt_eq_ld, harg2.read_unread, harg4.read_unread, harg5.read_unread, View.ld_unit_zero (S := S1024x2048) zeros2, View.ld_unit_zero (S := S1x2048) zeros2]

set_option maxHeartbeats 2000000 in
/-- The body where the branch is not taken: the scratch buffer at `xs` and the second output's buffer at `x5` are left as
    found, and the first output's buffer takes the product of `xs` with the weights' tile. -/
theorem laterRun (c : Dev nD) (i : grid0.Coords) (arg2 : Memref sig .tc .vmem S1024x2048 .f32) (harg2 : arg2.IsWhole) (arg3 : Memref sig .tc .vmem S2048x512 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1024x512 .f32) (harg6 : arg6.IsWhole) (arg7 : Memref sig .tc .vmem S1024x2048 .f32) (harg7 : arg7.IsWhole) (arg8 : Memref sig .tc .vmem S1024x2048 .bf16) (harg8 : arg8.IsWhole) (hc0 : ¬k0_cond1 i = 1#1)
    (x0 : Vec F S1024x2048 .f32) (x1 : Vec F S2048x512 .bf16) (x2 : Vec F S1x2048 .f32) (x3 : Vec F S1x2048 .f32)
    (x5 : Vec F S1024x2048 .f32) (xs : Vec F S1024x2048 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare x5 ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay3 xs x1) ∗ owns (c : Thread nD τ) arg7 fullShare x5 ∗ owns (c : Thread nD τ) arg8 fullShare xs) -∗ K ⟨⟩))
          ⊢ wp frame (wpE (defs₀ (F := F)) Variants.none c none) E (cc0__ln_dense_kernel i arg2 harg2 arg3 harg3 arg4 harg4 arg5 harg5 arg6 harg6 arg7 harg7 arg8 harg8) K := by
    intro E K
    simp only [cc0__ln_dense_kernel_eq_skeleton]; unfold cc0__ln_dense_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3
    obtain rfl := harg7.eq_unread hf5; obtain rfl := harg8.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      rw [View.read_writes_eq_canon _ _ _ (fun y => ⟨_, List.mem_singleton_self _, View.mem_set_unit_zero zeros2 inb_S1024x512_S1024x512_0_0 y⟩), View.canon_unit_zero zeros2]
      simp only [View.readAt_eq_ld, harg3.read_unread, harg8.read_unread, View.ld_unit_zero (S := S1024x2048) zeros2, View.ld_unit_zero (S := S2048x512) zeros2]
    isplitl [H5]
    · iexists _; isplitr; · ipureintro; exact harg7.read_unread _
      iexact H5
    iexists _; isplitr; · ipureintro; exact harg8.read_unread _
    iexact HS0

end Cert.KernelIdeal.Body

end
-- ==== Proof.BodySoundIdeal.lean ====
/-
  The body obligation of the layer-norm + dense kernel's pipeline and the run of the whole program, for any float instance.

  At the first point of a row-tile the body finds the scratch buffer at anything (at the very first point) or at the
  previous row-tile's copy, and leaves it at this row-tile's; at the fifteen later points it finds and leaves this
  row-tile's copy.  The second output's staging buffer is stored at the first point, left untouched afterwards, and at
  the row-tile's last point, where it is written back, it still holds what the first point stored.
-/
import proofs.«113714_g3092376453257_feedfinal_216_2_alg».proof.Proof.BodyDataIdeal
import proofs.«113714_g3092376453257_feedfinal_216_2_alg».proof.Proof.BodyRunIdeal

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 1600000 in
/-- The body at any point, by the point's place in its row-tile. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = carried m c (t.val + 1) t.isLt from rfl, carried_succ]
  have hN : t.val < 128 := lt_of_lt_of_eq t.isLt (show cfg0.N = 128 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [carried_castSucc]
  unfold tileProduct
  by_cases h0 : t.val % 16 = 0
  · -- the first point of a row-tile: the row-tile is normalised and stored
    rw [show (dats m 0 c).leavesExact 5 t = owns (c : Thread nD τ) (ms5 t) fullShare ((dats m 0 c).after 5 t) from by
      unfold Dat.leavesExact; rw [live5 t h0], after5]
    unfold rowNorm rowNormHalf
    rw [rowStart_of_first t h0]
    by_cases hz : t.val = 0
    · rw [carried_zero m c _ _ hz, entry_eq]
      iintro ⟨⟨HS0, Hg⟩, Ho, ⟨%d0, H0⟩, ⟨%d1, H1⟩, ⟨%d2, H2⟩, ⟨%d3, H3⟩, ⟨%d4, H4⟩, ⟨%d5, H5⟩⟩
      iapply (firstRun c (grid0.coords t) _ _ _ _ _ _ _ _ _ _ _ _ _ _ ((first_iff t).mpr h0) (iblk m c 0 t) (iblk m c 1 t) (iblk m c 2 t) (iblk m c 3 t) Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, H4, H5, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [carried_pos m c _ _ hz]
      iintro ⟨⟨HS0, Hg⟩, Ho, ⟨%d0, H0⟩, ⟨%d1, H1⟩, ⟨%d2, H2⟩, ⟨%d3, H3⟩, ⟨%d4, H4⟩, ⟨%d5, H5⟩⟩
      iapply (firstRun c (grid0.coords t) _ _ _ _ _ _ _ _ _ _ _ _ _ _ ((first_iff t).mpr h0) (iblk m c 0 t) (iblk m c 1 t) (iblk m c 2 t) (iblk m c 3 t) Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexists _; iexact HS0
      iintro ⟨H0, H1, H2, H3, H4, H5, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      iexact H5
  · -- a later point: the scratch buffer and the second output's buffer are found as the row-tile's first point left them
    rw [carried_pos m c _ _ (by omega : t.val ≠ 0), ← rowNormHalf_prev m c t h0]
    simp only [fun d => before5 m c d t.val t rfl h0]
    by_cases hf : t.val % 16 = 15
    · rw [show (dats m 0 c).leavesExact 5 t = owns (c : Thread nD τ) (ms5 t) fullShare ((dats m 0 c).after 5 t) from by
        unfold Dat.leavesExact; rw [idle5 t h0, (flush0_5 t).mpr hf], after5]
      iintro ⟨⟨HS0, Hg⟩, Ho, ⟨%d0, H0⟩, ⟨%d1, H1⟩, ⟨%d2, H2⟩, ⟨%d3, H3⟩, ⟨%d4, H4⟩, ⟨%d5, H5⟩⟩
      iapply (laterRun c (grid0.coords t) _ _ _ _ _ _ _ _ _ _ _ _ _ _ (fun h => h0 ((first_iff t).mp h)) (iblk m c 0 t) (iblk m c 1 t) (iblk m c 2 t) (iblk m c 3 t) (rowNorm m c t) (rowNormHalf m c t) Set.univ _)
      isplitl [H0]; · iexact H0
      isplitl [H1]; · iexact H1
      isplitl [H2]; · iexact H2
      isplitl [H3]; · iexact H3
      isplitl [H4]; · iexists _; iexact H4
      isplitl [H5]; · iexact H5
      isplitl [HS0]; · iexact HS0
      iintro ⟨H0, H1, H2, H3, H4, H5, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dats m 0 c) 5 t (idle5 t h0) (Bool.eq_false_iff.mpr fun h => hf ((flush0_5 t).mp h))]
      simp only [fun d => before5 m c d t.val t rfl h0]
      iintro ⟨⟨HS0, Hg⟩, Ho, ⟨%d0, H0⟩, ⟨%d1, H1⟩, ⟨%d2, H2⟩, ⟨%d3, H3⟩, ⟨%d4, H4⟩, ⟨%d5, H5⟩⟩
      iapply (laterRun c (grid0.coords t) _ _ _ _ _ _ _ _ _ _ _ _ _ _ (fun h => h0 ((first_iff t).mp h)) (iblk m c 0 t) (iblk m c 1 t) (iblk m c 2 t) (iblk m c 3 t) (rowNorm m c t) (rowNormHalf m c t) Set.univ _)
      isplitl [H0]; · iexact H0
      isplitl [H1]; · iexact H1
      isplitl [H2]; · iexact H2
      isplitl [H3]; · iexact H3
      isplitl [H4]; · iexists _; iexact H4
      isplitl [H5]; · iexact H5
      isplitl [HS0]; · iexact HS0
      iintro ⟨H0, H1, H2, H3, H4, H5, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      iexists d5; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem entry_inv (c : Dev nD) : Pipeline.ΦA spec0 c ⊢ (dats m 0 c).Φ 0 := by
  rw [show (dats m 0 c).Φ 0 = carried m c 0 (Nat.zero_le _) from rfl, carried_zero m c 0 _ rfl]
  try exact Idealize.SL.BI.Entails.refl _

/-- After the last point the invariant gives the scratch buffer back at some contents. -/
theorem exit_inv (c : Dev nD) : (dats m 0 c).Φ (Fin.last cfg0.N) ⊢ Pipeline.ΦA spec0 c := by
  rw [show (dats m 0 c).Φ (Fin.last cfg0.N) = carried m c (Fin.last cfg0.N).val (Nat.le_of_lt_succ (Fin.last cfg0.N).isLt) from rfl,
    carried_pos m c _ _ (by rw [Fin.val_last]; have : cfg0.N = 128 := N_0; omega), entry_eq]
  iintro ⟨HS0, Hg⟩
  isplitl [HS0]
  · iexists _; iexact HS0
  iexact Hg

set_option backward.isDefEq.respectTransparency.types false in
/-- Every weakly fair execution of the program terminates; every array of the pipeline ends at what the library computes
    from the proof data, every other unscoped buffer as the host operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := entry_inv m) (hout := exit_inv m)

/-- The argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body

end
-- ==== Proof.Spec.lean ====
/-
  Layer normalisation of a row of 2048 numbers, followed by a dense product, over the extended reals.

  For a row ξ the mean is μ = (Σₖ ξₖ) / 2048 and the variance is σ² = (Σₖ (ξₖ − μ)²) / 2048.  The normalised row is
  (ξₖ − μ) · (σ² + ε)^(−1/2) · sₖ + bₖ for a scale s and a shift b, with ε the single-precision number nearest 10⁻⁶.
  The dense product pairs the normalised row with a column ω of the weights: Σₖ yₖ · ωₖ.

  Both programs compute exactly these expressions, in this order of operations, so nothing below needs the inputs to be
  finite: no term is ever moved across a sum or cancelled.
-/
import Idealize.ShloMosaic.PureOps.Ideal
import Idealize.ShloMosaic.PureOps.Ideal.Laws
import Idealize.ShloMosaic.Lib.ValueIdx

noncomputable section

namespace Cert.NormDense

open Idealize.ShloMosaic

/-- The length of a row, 2048, as the single-precision number both programs divide by. -/
abbrev width : EReal := Ideal.ofBits .f32 0x45000000#32

/-- The single-precision number nearest 10⁻⁶, added to the variance before the inverse square root. -/
abbrev eps : EReal := Ideal.ofBits .f32 0x358637BD#32

/-- The mean of a row. -/
def mean (ξ : Fin 2048 → EReal) : EReal := Ideal.div (∑ k : Fin 2048, ξ k) width

/-- A row's entry less the row's mean. -/
def centred (ξ : Fin 2048 → EReal) (k : Fin 2048) : EReal := ξ k - mean ξ

/-- The variance of a row: the mean of the squares of the centred entries. -/
def variance (ξ : Fin 2048 → EReal) : EReal := Ideal.div (∑ k : Fin 2048, centred ξ k * centred ξ k) width

/-- The normalised row: centred, divided by the square root of the variance plus ε, scaled by s and shifted by b. -/
def normalised (ξ s b : Fin 2048 → EReal) (k : Fin 2048) : EReal :=
  centred ξ k * Ideal.rsqrt (variance ξ + eps) * s k + b k

/-- The dense product of a normalised row with one column ω of the weights. -/
def projected (ξ s b ω : Fin 2048 → EReal) : EReal := ∑ k : Fin 2048, normalised ξ s b k * ω k

end Cert.NormDense

end
-- ==== Proof.LibBroadcast.lean ====
/-
  Broadcasts of a single column, read at an index, and the two small re-layouts of a vector as a matrix.

  An `[a, 1]` array broadcast to `[a, b]` has at `(p, c)` the column's entry `p`.  A vector of length `n` re-laid as a
  `[1, n]` row or as an `[n, 1]` column keeps its entries in order.
-/
import Idealize.ShloMosaic.Lib.Pipeline.Value
import Idealize.ShloMosaic.Lib.ValueLayout
import Idealize.ShloMosaic.Lib.ValueIdx

noncomputable section

namespace Cert.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector re-laid as a one-row matrix: entry `(0, q)` is entry `q`. -/
theorem shapeCast_row_apply {n : ℕ} (v : (⟨1, ![n]⟩ : Shape).Idx → α) (h : (⟨1, ![n]⟩ : Shape).ShapeCasts ⟨2, ![1, n]⟩) (q : Fin n) :
    shapeCast (⟨2, ![1, n]⟩ : Shape) v h (ix2 (0 : Fin 1) q) = v (ix1 q) := by
  refine shapeCast_apply v h (ix2 (0 : Fin 1) q) (ix1 q) ?_
  rw [Shape.rowMajor_val_two, Shape.rowMajor_val_one]
  show q.val = 0 * n + q.val
  omega

/-- A vector re-laid as a one-column matrix: entry `(p, 0)` is entry `p`. -/
theorem shapeCast_col_apply {n : ℕ} (v : (⟨1, ![n]⟩ : Shape).Idx → α) (h : (⟨1, ![n]⟩ : Shape).ShapeCasts ⟨2, ![n, 1]⟩) (p : Fin n) :
    shapeCast (⟨2, ![n, 1]⟩ : Shape) v h (ix2 p (0 : Fin 1)) = v (ix1 p) := by
  refine shapeCast_apply v h (ix2 p (0 : Fin 1)) (ix1 p) ?_
  rw [Shape.rowMajor_val_two, Shape.rowMajor_val_one]
  show p.val = p.val * 1 + 0
  omega

end Cert.Layout

end
-- ==== Proof.LibRowsProduct.lean ====
/-
  Two small facts about `[m, k]` arrays, at the ideal values where a product is an exact sum.

  A one-row matrix broadcast down `a` rows has at `(p, q)` the row's entry `q`.  The matrix product that contracts the
  SECOND axis of both operands — `A · Bᵀ` for `A : [m, k]`, `B : [n, k]` — into a zero accumulator has at `(a, b)` the
  sum over `c` of `A (a, c) · B (b, c)`.
-/
import Idealize.ShloMosaic.Lib.Pipeline.Value
import Idealize.ShloMosaic.Lib.ValueLayout
import Idealize.ShloMosaic.Lib.ValueIdx
import Idealize.ShloMosaic.PureOps.Ideal.Laws

noncomputable section

namespace Cert.RowsProduct

open Idealize.ShloMosaic Idealize.ShloMosaic.ValueIdx

/-- A `[1, n]` array broadcast to `[a, n]` reads, at `(p, q)`, the operand's one row at `q`. -/
theorem broadcastTo_1n_an_apply {α : Type} {a n : ℕ} (v : (⟨2, ![1, n]⟩ : Shape).Idx → α)
    (h : (⟨2, ![1, n]⟩ : Shape).Broadcasts ⟨2, ![a, n]⟩) (p : Fin a) (q : Fin n) :
    broadcastTo ⟨2, ![a, n]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if n = 1 then 0 else q.val
    split
    · have := q.isLt; omega
    · rfl

/-- `A · Bᵀ` into the zero accumulator, read at `(a, b)`: the sum over the shared second coordinate of the products. -/
theorem matmul_nt_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.RowsProduct

end
-- ==== Proof.LibPlainProduct.lean ====
/-
  The plain matrix product at the ideal values, where a product is an exact sum.

  For `A : [m, k]` and `B : [k, n]`, the product contracting the second axis of `A` with the first of `B` into a zero
  accumulator has at `(a, b)` the sum over `c` of `A (a, c) · B (c, b)`.
-/
import Idealize.ShloMosaic.Lib.Pipeline.Value
import Idealize.ShloMosaic.Lib.ValueIdx
import Idealize.ShloMosaic.PureOps.Ideal.Laws

noncomputable section

namespace Cert.PlainProduct

open Idealize.ShloMosaic Idealize.ShloMosaic.ValueIdx

/-- `A · B` into the zero accumulator, read at `(a, b)`: the sum over the shared coordinate of the products. -/
theorem matmul_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.PlainProduct

end
-- ==== Proof.Payload.lean ====
/-
  The kernel body's three stored values, read at an index, over the extended reals.

  The body normalises each row of a [1024, 2048] block: it sums the row, divides by the width to get the mean, subtracts
  the mean, sums the squares of the centred entries, divides by the width to get the variance, adds ε, takes the inverse
  square root, multiplies the centred entry by it, then by the scale's entry and adds the shift's entry.  Over the
  extended reals every one of these operations is exact and pointwise except the two row sums and the re-layouts, so the
  stored value at (p, q) is the specification's normalised row p at q, term for term.  The second stored value is the
  first one narrowed to a shorter format, which is the identity on extended reals.  The third is the plain product of a
  [1024, 2048] block with a [2048, 512] block into a zero accumulator: at (p, f) the sum over k of the products.
-/
import proofs.«113714_g3092376453257_feedfinal_216_2_alg».proof.Proof.Gen.KernelIdeal.Skeleton
import proofs.«113714_g3092376453257_feedfinal_216_2_alg».proof.Proof.Spec
import proofs.«113714_g3092376453257_feedfinal_216_2_alg».proof.Proof.LibBroadcast
import proofs.«113714_g3092376453257_feedfinal_216_2_alg».proof.Proof.LibRowsProduct
import proofs.«113714_g3092376453257_feedfinal_216_2_alg».proof.Proof.LibPlainProduct
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.PayloadValue

open Idealize.ShloMosaic Idealize.ShloMosaic.ValueIdx Cert.KernelIdeal Cert.KernelIdeal.Gen

/-- The sum along the second axis of a [1024, 2048] array, read at row p: the sum over the row's 2048 entries. -/
theorem rowSum_apply (v : FVec Ideal S1024x2048 .f32) (h : S1024x2048.Reduces [1] S1024)
    (hφ : FKind.Formats .f32) (hacc : (0x00000000#32 : BitVec 32) = FKind.add.neutral .f32 hφ) (p : Fin 1024) :
    multiReduction .add [1] S1024 v 0x00000000#32 h hφ hacc (ix1 p) = ∑ k : Fin 2048, v (ix2 p k) := by
  refine (Ideal.multiReduction_add_single v 0x00000000#32 h hφ hacc (ix1 p)).trans ?_
  refine Finset.sum_congr rfl fun k _ => congrArg v ?_
  funext ax
  apply Fin.ext
  match ax with
  | ⟨0, _⟩ => rfl
  | ⟨1, _⟩ => rfl

/-- A row's sum, re-laid as a one-column matrix and divided by a constant w: at (p, 0) the row's sum over w. -/
theorem rowSumDiv_apply (v : FVec Ideal S1024x2048 .f32) (h : S1024x2048.Reduces [1] S1024)
    (hφ : FKind.Formats .f32) (hacc : (0x00000000#32 : BitVec 32) = FKind.add.neutral .f32 hφ)
    (hc : S1024.ShapeCasts S1024x1) (w : BitVec 32) (p : Fin 1024) :
    divf (F := Ideal) (shapeCast S1024x1 (multiReduction .add [1] S1024 v 0x00000000#32 h hφ hacc) hc)
        (broadcast S1024x1 (Scalar.ofBits .f32 w)) (ix2 p (0 : Fin 1))
      = Ideal.div (∑ k : Fin 2048, v (ix2 p k)) (Ideal.ofBits .f32 w) := by
  rw [divf_apply, broadcast_apply, Cert.Layout.shapeCast_col_apply, rowSum_apply]
  rfl

/-- The column of row means, broadcast along the rows: at (p, q) the mean of row p. -/
theorem meanBroadcast_apply (v : FVec Ideal S1024x2048 .f32) (h : S1024x2048.Reduces [1] S1024)
    (hφ : FKind.Formats .f32) (hacc : (0x00000000#32 : BitVec 32) = FKind.add.neutral .f32 hφ)
    (hc : S1024.ShapeCasts S1024x1) (hb : S1024x1.Broadcasts S1024x2048) (p : Fin 1024) (q : Fin 2048) :
    broadcastTo S1024x2048
        (divf (F := Ideal) (shapeCast S1024x1 (multiReduction .add [1] S1024 v 0x00000000#32 h hφ hacc) hc)
          (broadcast S1024x1 (Scalar.ofBits .f32 0x45000000#32))) hb (ix2 p q)
      = Cert.NormDense.mean fun k => v (ix2 p k) := by
  rw [Cert.Layout.broadcastTo_a1_ab_apply, rowSumDiv_apply]
  rfl

/-- The array less its rows' means: at (p, q) the centred entry q of row p. -/
theorem centred_apply (v : FVec Ideal S1024x2048 .f32) (h : S1024x2048.Reduces [1] S1024)
    (hφ : FKind.Formats .f32) (hacc : (0x00000000#32 : BitVec 32) = FKind.add.neutral .f32 hφ)
    (hc : S1024.ShapeCasts S1024x1) (hb : S1024x1.Broadcasts S1024x2048) (p : Fin 1024) (q : Fin 2048) :
    subf (F := Ideal) v
        (broadcastTo S1024x2048
          (divf (F := Ideal) (shapeCast S1024x1 (multiReduction .add [1] S1024 v 0x00000000#32 h hφ hacc) hc)
            (broadcast S1024x1 (Scalar.ofBits .f32 0x45000000#32))) hb) (ix2 p q)
      = Cert.NormDense.centred (fun k => v (ix2 p k)) q := by
  rw [subf_apply, meanBroadcast_apply]
  rfl

/-- The inverse square root of (the mean of a row's squares, plus ε), as a column broadcast along the rows. -/
theorem rsqrtBroadcast_apply (c : FVec Ideal S1024x2048 .f32) (h : S1024x2048.Reduces [1] S1024)
    (hφ : FKind.Formats .f32) (hacc : (0x00000000#32 : BitVec 32) = FKind.add.neutral .f32 hφ)
    (hc : S1024.ShapeCasts S1024x1) (hb : S1024x1.Broadcasts S1024x2048) (p : Fin 1024) (q : Fin 2048) :
    broadcastTo S1024x2048
        (rsqrt (F := Ideal)
          (addf
            (divf (shapeCast S1024x1 (multiReduction .add [1] S1024 (mulf c c) 0x00000000#32 h hφ hacc) hc)
              (broadcast S1024x1 (Scalar.ofBits .f32 0x45000000#32)))
            (broadcast S1024x1 (Scalar.ofBits .f32 0x358637BD#32)))) hb (ix2 p q)
      = Ideal.rsqrt (Ideal.div (∑ k : Fin 2048, c (ix2 p k) * c (ix2 p k)) Cert.NormDense.width + Cert.NormDense.eps) := by
  rw [Cert.Layout.broadcastTo_a1_ab_apply]
  show Ideal.rsqrt (divf (F := Ideal) _ _ (ix2 p (0 : Fin 1)) + _) = _
  rw [rowSumDiv_apply]
  rfl

/-- The first stored value at (p, q): the normalised row p at q. -/
theorem pay1_apply (v8 : Vec Ideal S1024x2048 .f32) (v26 v30 : Vec Ideal S1x2048 .f32) (p : Fin 1024) (q : Fin 2048) :
    k0_pay1 (F := Ideal) v8 v26 v30 (ix2 p q)
      = Cert.NormDense.normalised (fun k => v8 (ix2 p k)) (fun k => v26 (ix2 (0 : Fin 1) k))
          (fun k => v30 (ix2 (0 : Fin 1) k)) q := by
  unfold k0_pay1
  simp only [shapeCast_self, addf_apply, mulf_apply, subf_apply]
  unfold Cert.NormDense.normalised
  refine congrArg₂ (· + ·) (congrArg₂ (· * ·) (congrArg₂ (· * ·) ?_ ?_) ?_) ?_
  · exact centred_apply v8 _ _ _ _ _ p q
  · refine (rsqrtBroadcast_apply _ _ _ _ _ _ p q).trans ?_
    unfold Cert.NormDense.variance
    refine congrArg (fun t => Ideal.rsqrt (Ideal.div t Cert.NormDense.width + Cert.NormDense.eps)) ?_
    refine Finset.sum_congr rfl fun k _ => ?_
    exact congrArg₂ (· * ·) (centred_apply v8 _ _ _ _ _ p k) (centred_apply v8 _ _ _ _ _ p k)
  · exact Cert.RowsProduct.broadcastTo_1n_an_apply v26 _ p q
  · exact Cert.RowsProduct.broadcastTo_1n_an_apply v30 _ p q

/-- The second stored value at (p, q): the first one narrowed, which over the extended reals changes nothing. -/
theorem pay2_apply (v8 : Vec Ideal S1024x2048 .f32) (v26 v30 : Vec Ideal S1x2048 .f32) (p : Fin 1024) (q : Fin 2048) :
    k0_pay2 (F := Ideal) v8 v26 v30 (ix2 p q)
      = Cert.NormDense.normalised (fun k => v8 (ix2 p k)) (fun k => v26 (ix2 (0 : Fin 1) k))
          (fun k => v30 (ix2 (0 : Fin 1) k)) q := by
  unfold k0_pay2
  simp only [shapeCast_self]
  exact (truncf_apply (ψ := .bf16) (k0_pay1 (F := Ideal) v8 v26 v30) bitsLt_bf16_f32 (ix2 p q)).trans
    (pay1_apply v8 v26 v30 p q)

/-- The third stored value at (p, f): the sum over k of the products of the two blocks' entries (p, k) and (k, f). -/
theorem pay3_apply (v3 : Vec Ideal S1024x2048 .bf16) (v4 : Vec Ideal S2048x512 .bf16) (p : Fin 1024) (f : Fin 512) :
    k0_pay3 (F := Ideal) v3 v4 (ix2 p f) = ∑ k : Fin 2048, v3 (ix2 p k) * v4 (ix2 k f) := by
  unfold k0_pay3
  simp only [shapeCast_self]
  exact Cert.PlainProduct.matmul_nn_apply _ none v3 v4 p f

end Cert.KernelIdeal.PayloadValue

end
-- ==== Proof.SpecArrays.lean ====
/-
  The specification on whole arrays.

  The input is read as 8192 rows of 2048 numbers (the [2048, 4, 2048] array with its first two axes merged: row
  4·s + b is the row (s, b)); the scale and the shift are one row each; the weights are a [2048, 8192] matrix.  The two
  results are the 8192 normalised rows, and the [8192, 8192] matrix of their products with the columns of the weights.
-/
import proofs.«113714_g3092376453257_feedfinal_216_2_alg».proof.Proof.Spec

noncomputable section

namespace Cert.NormDense

open Idealize.ShloMosaic Idealize.ShloMosaic.ValueIdx

/-- The input as a matrix of rows; one row of scale or shift; the weights; the matrix of products. -/
abbrev Rows : Shape := ⟨2, ![8192, 2048]⟩
abbrev OneRow : Shape := ⟨2, ![1, 2048]⟩
abbrev Weights : Shape := ⟨2, ![2048, 8192]⟩
abbrev Products : Shape := ⟨2, ![8192, 8192]⟩

/-- Row `R` of the input. -/
def rowOf (X : Rows.Idx → EReal) (R : Fin 8192) : Fin 2048 → EReal := fun k => X (ix2 R k)
/-- The scale (or the shift) as a row. -/
def vecOf (s : OneRow.Idx → EReal) : Fin 2048 → EReal := fun k => s (ix2 (0 : Fin 1) k)
/-- Column `f` of the weights. -/
def colOf (W : Weights.Idx → EReal) (f : Fin 8192) : Fin 2048 → EReal := fun k => W (ix2 k f)

/-- The normalised rows. -/
def normalisedRows (X : Rows.Idx → EReal) (s b : OneRow.Idx → EReal) : Rows.Idx → EReal := fun j =>
  normalised (rowOf X ⟨(j 0).val, (j 0).isLt⟩) (vecOf s) (vecOf b) ⟨(j 1).val, (j 1).isLt⟩

/-- The products of the normalised rows with the columns of the weights. -/
def projectedRows (X : Rows.Idx → EReal) (s b : OneRow.Idx → EReal) (W : Weights.Idx → EReal) : Products.Idx → EReal := fun j =>
  projected (rowOf X ⟨(j 0).val, (j 0).isLt⟩) (vecOf s) (vecOf b) (colOf W ⟨(j 1).val, (j 1).isLt⟩)

theorem normalisedRows_apply (X : Rows.Idx → EReal) (s b : OneRow.Idx → EReal) (R : Fin 8192) (q : Fin 2048) :
    normalisedRows X s b (ix2 R q) = normalised (rowOf X R) (vecOf s) (vecOf b) q := rfl

theorem projectedRows_apply (X : Rows.Idx → EReal) (s b : OneRow.Idx → EReal) (W : Weights.Idx → EReal) (R f : Fin 8192) :
    projectedRows X s b W (ix2 R f) = projected (rowOf X R) (vecOf s) (vecOf b) (colOf W f) := rfl

end Cert.NormDense

end
-- ==== Proof.BlocksIdeal.lean ====
/-
  From the blocks each grid point writes back to the two whole output arrays, over the extended reals.

  The grid has 8 × 16 points; point t is in row-tile t / 16 and column-tile t % 16.  The input's block at a point is the
  1024 rows of its row-tile; the weights' block is the 512 columns of its column-tile; the scale and the shift are one
  block each.  The normalised rows are written back once per row-tile, at its last point, as rows 1024·(t / 16) onwards;
  the products are written back at every point, as the 1024 × 512 tile at (t / 16, t % 16).  Each block written back is
  the restriction of one function of the whole arrays — the normalised rows, and their products with the weights'
  columns — and the blocks cover the arrays, so the arrays end holding those functions.
-/
import proofs.«113714_g3092376453257_feedfinal_216_2_alg».proof.Proof.BodyDataIdeal
import proofs.«113714_g3092376453257_feedfinal_216_2_alg».proof.Proof.Payload
import proofs.«113714_g3092376453257_feedfinal_216_2_alg».proof.Proof.SpecArrays
import Idealize.ShloMosaic.Lib.Pipeline.Value

set_option maxRecDepth 16384

noncomputable section

namespace Cert.KernelIdeal.BlockValue

open Cert.KernelIdeal Cert.KernelIdeal.Gen Cert.KernelIdeal.Body Cert.KernelIdeal.PayloadValue Cert.NormDense
open Idealize.ShloMosaic Idealize.ShloMosaic.ValueIdx Idealize.ShloMosaic.TcCoe
open Idealize.ShloMosaic.Pipeline (Dat)
open Idealize.SL.Sem

variable (m : (ℓ : Loc nD τ sig) → Buf (Elt Ideal) ℓ)

/-! ## The index maps over the grid -/

/-- Where each window's block sits at point t: the input's rows (read at the first point of t's row-tile) and both
    outputs' rows in row-tile t / 16; the weights' and the products' columns in column-tile t % 16; the scale and the
    shift at their one block. -/
theorem index_facts : ∀ t : Fin cfg0.N,
    win0_0.index (rowStart t) (0 : Fin 2) = t.val / 16 ∧ win0_0.index (rowStart t) (1 : Fin 2) = 0
    ∧ win0_1.index t (0 : Fin 2) = 0 ∧ win0_1.index t (1 : Fin 2) = t.val % 16
    ∧ win0_2.index (rowStart t) (0 : Fin 2) = 0 ∧ win0_2.index (rowStart t) (1 : Fin 2) = 0
    ∧ win0_3.index (rowStart t) (0 : Fin 2) = 0 ∧ win0_3.index (rowStart t) (1 : Fin 2) = 0
    ∧ win0_4.index t (0 : Fin 2) = t.val / 16 ∧ win0_4.index t (1 : Fin 2) = t.val % 16
    ∧ win0_5.index t (0 : Fin 2) = t.val / 16 ∧ win0_5.index t (1 : Fin 2) = 0 :=
  (by decide +kernel : ∀ t : Fin grid0.N, _)

/-! ## The input blocks, read at an index -/

/-- The input's block at a point: row p of the block is row (block index) · 1024 + p of the array. -/
theorem rowsBlock_apply (c : Dev nD) (t : Fin cfg0.N) (p : Fin 1024) (k : Fin 2048) (R : Fin 8192)
    (hR : R.val = win0_0.index t (0 : Fin 2) * 1024 + p.val) (h1 : win0_0.index t (1 : Fin 2) = 0) :
    iblk m c 0 t (ix2 p k) = V m c main_v0 (ix2 R k) := by
  show V m c main_v0 (((cfg0.win 0).blk t).view.emb (ix2 p k)) = _
  refine congrArg _ (funext fun a => Fin.ext ?_)
  match a with
  | ⟨0, _⟩ => show win0_0.index t (0 : Fin 2) * 1024 + 1 * p.val = R.val; omega
  | ⟨1, _⟩ => show win0_0.index t (1 : Fin 2) * 2048 + 1 * k.val = k.val; omega

/-- The weights' block at a point: column f of the block is column (block index) · 512 + f of the array. -/
theorem weightsBlock_apply (c : Dev nD) (t : Fin cfg0.N) (k : Fin 2048) (f : Fin 512) (C : Fin 8192)
    (h0 : win0_1.index t (0 : Fin 2) = 0) (hC : C.val = win0_1.index t (1 : Fin 2) * 512 + f.val) :
    iblk m c 1 t (ix2 k f) = V m c main_v1 (ix2 k C) := by
  show V m c main_v1 (((cfg0.win 1).blk t).view.emb (ix2 k f)) = _
  refine congrArg _ (funext fun a => Fin.ext ?_)
  match a with
  | ⟨0, _⟩ => show win0_1.index t (0 : Fin 2) * 2048 + 1 * k.val = k.val; omega
  | ⟨1, _⟩ => show win0_1.index t (1 : Fin 2) * 512 + 1 * f.val = C.val; omega

/-- The scale's one block is the scale. -/
theorem scaleBlock_apply (c : Dev nD) (t : Fin cfg0.N) (k : Fin 2048)
    (h0 : win0_2.index t (0 : Fin 2) = 0) (h1 : win0_2.index t (1 : Fin 2) = 0) :
    iblk m c 2 t (ix2 (0 : Fin 1) k) = V m c main_v2 (ix2 (0 : Fin 1) k) := by
  show V m c main_v2 (((cfg0.win 2).blk t).view.emb (ix2 (0 : Fin 1) k)) = _
  refine congrArg _ (funext fun a => Fin.ext ?_)
  match a with
  | ⟨0, _⟩ => show win0_2.index t (0 : Fin 2) * 1 + 1 * 0 = 0; omega
  | ⟨1, _⟩ => show win0_2.index t (1 : Fin 2) * 2048 + 1 * k.val = k.val; omega

/-- The shift's one block is the shift. -/
theorem shiftBlock_apply (c : Dev nD) (t : Fin cfg0.N) (k : Fin 2048)
    (h0 : win0_3.index t (0 : Fin 2) = 0) (h1 : win0_3.index t (1 : Fin 2) = 0) :
    iblk m c 3 t (ix2 (0 : Fin 1) k) = V m c main_v3 (ix2 (0 : Fin 1) k) := by
  show V m c main_v3 (((cfg0.win 3).blk t).view.emb (ix2 (0 : Fin 1) k)) = _
  refine congrArg _ (funext fun a => Fin.ext ?_)
  match a with
  | ⟨0, _⟩ => show win0_3.index t (0 : Fin 2) * 1 + 1 * 0 = 0; omega
  | ⟨1, _⟩ => show win0_3.index t (1 : Fin 2) * 2048 + 1 * k.val = k.val; omega

/-! ## What a point writes back -/

/-- The normalised row p of the row-tile of point t, computed from the blocks at the row-tile's first point, is the
    normalised row (t / 16) · 1024 + p of the whole input. -/
theorem normalisedBlock_apply (c : Dev nD) (t : Fin cfg0.N) (p : Fin 1024) (q : Fin 2048)
    (hR : t.val / 16 * 1024 + p.val < 8192) :
    normalised (fun k => iblk m c 0 (rowStart t) (ix2 p k)) (fun k => iblk m c 2 (rowStart t) (ix2 (0 : Fin 1) k))
        (fun k => iblk m c 3 (rowStart t) (ix2 (0 : Fin 1) k)) q
      = normalised (rowOf (V m c main_v0) ⟨t.val / 16 * 1024 + p.val, hR⟩) (vecOf (V m c main_v2))
          (vecOf (V m c main_v3)) q := by
  obtain ⟨e00, e01, -, -, e20, e21, e30, e31, -, -, -, -⟩ := index_facts t
  have r0 : (fun k => iblk m c 0 (rowStart t) (ix2 p k)) = rowOf (V m c main_v0) ⟨t.val / 16 * 1024 + p.val, hR⟩ :=
    funext fun k => rowsBlock_apply m c (rowStart t) p k ⟨t.val / 16 * 1024 + p.val, hR⟩
      (by show t.val / 16 * 1024 + p.val = win0_0.index (rowStart t) (0 : Fin 2) * 1024 + p.val; omega) e01
  have r2 : (fun k => iblk m c 2 (rowStart t) (ix2 (0 : Fin 1) k)) = vecOf (V m c main_v2) :=
    funext fun k => scaleBlock_apply m c (rowStart t) k e20 e21
  have r3 : (fun k => iblk m c 3 (rowStart t) (ix2 (0 : Fin 1) k)) = vecOf (V m c main_v3) :=
    funext fun k => shiftBlock_apply m c (rowStart t) k e30 e31
  rw [r0, r2, r3]

/-- What point t writes back to the normalised rows' array is its block of the whole array of normalised rows. -/
theorem flushed5_eq (c : Dev nD) (t : Fin cfg0.N) :
    (dats m 0 c).flushed 5 t = ((cfg0.win 5).blk t).view.read (Elt Ideal)
      (normalisedRows (V m c main_v0) (V m c main_v2) (V m c main_v3)) := by
  show (cfg0.win 5).cut (grid0.coords t) ((dats m 0 c).after 5 t) = _
  rw [after5]
  funext y
  obtain ⟨p, q, rfl⟩ : ∃ (p : Fin 1024) (q : Fin 2048), y = ix2 p q := ⟨y 0, y 1, eq_ix2 y⟩
  obtain ⟨-, -, -, -, -, -, -, -, -, -, e50, e51⟩ := index_facts t
  have hN : t.val < 128 := lt_of_lt_of_eq t.isLt (show cfg0.N = 128 from N_0)
  have hR : t.val / 16 * 1024 + p.val < 8192 := by have := p.isLt; omega
  have hemb : ((cfg0.win 5).blk t).view.emb (ix2 p q) = ix2 (⟨t.val / 16 * 1024 + p.val, hR⟩ : Fin 8192) q := by
    funext a; apply Fin.ext
    match a with
    | ⟨0, _⟩ => show win0_5.index t (0 : Fin 2) * 1024 + 1 * p.val = t.val / 16 * 1024 + p.val; omega
    | ⟨1, _⟩ => show win0_5.index t (1 : Fin 2) * 2048 + 1 * q.val = q.val; omega
  show rowNorm m c t (ix2 p q)
    = normalisedRows (V m c main_v0) (V m c main_v2) (V m c main_v3) (((cfg0.win 5).blk t).view.emb (ix2 p q))
  rw [hemb, normalisedRows_apply]
  unfold rowNorm
  exact (pay1_apply (iblk m c 0 (rowStart t)) (iblk m c 2 (rowStart t)) (iblk m c 3 (rowStart t)) p q).trans
    (normalisedBlock_apply m c t p q hR)

/-- What point t writes back to the products' array is its tile of the whole array of products. -/
theorem flushed4_eq (c : Dev nD) (t : Fin cfg0.N) :
    (dats m 0 c).flushed 4 t = ((cfg0.win 4).blk t).view.read (Elt Ideal)
      (projectedRows (V m c main_v0) (V m c main_v2) (V m c main_v3) (V m c main_v1)) := by
  show (cfg0.win 4).cut (grid0.coords t) ((dats m 0 c).after 4 t) = _
  rw [after4]
  funext y
  obtain ⟨p, f, rfl⟩ : ∃ (p : Fin 1024) (f : Fin 512), y = ix2 p f := ⟨y 0, y 1, eq_ix2 y⟩
  obtain ⟨-, -, e10, e11, -, -, -, -, e40, e41, -, -⟩ := index_facts t
  have hN : t.val < 128 := lt_of_lt_of_eq t.isLt (show cfg0.N = 128 from N_0)
  have hR : t.val / 16 * 1024 + p.val < 8192 := by have := p.isLt; omega
  have hC : t.val % 16 * 512 + f.val < 8192 := by have := f.isLt; omega
  have hemb : ((cfg0.win 4).blk t).view.emb (ix2 p f)
      = ix2 (⟨t.val / 16 * 1024 + p.val, hR⟩ : Fin 8192) (⟨t.val % 16 * 512 + f.val, hC⟩ : Fin 8192) := by
    funext a; apply Fin.ext
    match a with
    | ⟨0, _⟩ => show win0_4.index t (0 : Fin 2) * 1024 + 1 * p.val = t.val / 16 * 1024 + p.val; omega
    | ⟨1, _⟩ => show win0_4.index t (1 : Fin 2) * 512 + 1 * f.val = t.val % 16 * 512 + f.val; omega
  show tileProduct m c t (ix2 p f)
    = projectedRows (V m c main_v0) (V m c main_v2) (V m c main_v3) (V m c main_v1)
        (((cfg0.win 4).blk t).view.emb (ix2 p f))
  rw [hemb, projectedRows_apply]
  unfold tileProduct
  refine (pay3_apply (rowNormHalf m c t) (iblk m c 1 t) p f).trans ?_
  unfold projected
  refine Finset.sum_congr rfl fun k _ => ?_
  refine congrArg₂ (· * ·) ?_ ?_
  · unfold rowNormHalf
    exact (pay2_apply (iblk m c 0 (rowStart t)) (iblk m c 2 (rowStart t)) (iblk m c 3 (rowStart t)) p k).trans
      (normalisedBlock_apply m c t p k hR)
  · exact weightsBlock_apply m c t k f ⟨t.val % 16 * 512 + f.val, hC⟩ e10
      (by show t.val % 16 * 512 + f.val = win0_1.index t (1 : Fin 2) * 512 + f.val; omega)

/-! ## The blocks cover the arrays -/

/-- An index of the normalised rows' array is in point t's block iff each coordinate is in the block's range. -/
theorem mem_blk5 (t : Fin cfg0.N) (i : S8192x2048.Idx) :
    i ∈ ((cfg0.win 5).blk t).view.set ↔ ∀ a : Fin 2, win0_5.index t a * S1024x2048.size a ≤ (i a).val
      ∧ (i a).val < win0_5.index t a * S1024x2048.size a + S1024x2048.size a := by
  show i ∈ ((View.whole main_v4_1).slice (win0_5.rect t)).set ↔ _
  rw [View.set_slice_whole, Rect.mem_set_unit]
  exact Iff.rfl

/-- An index of the products' array is in point t's tile iff each coordinate is in the tile's range. -/
theorem mem_blk4 (t : Fin cfg0.N) (i : S8192x8192.Idx) :
    i ∈ ((cfg0.win 4).blk t).view.set ↔ ∀ a : Fin 2, win0_4.index t a * S1024x512.size a ≤ (i a).val
      ∧ (i a).val < win0_4.index t a * S1024x512.size a + S1024x512.size a := by
  show i ∈ ((View.whole main_v4_0).slice (win0_4.rect t)).set ↔ _
  rw [View.set_slice_whole, Rect.mem_set_unit]
  exact Iff.rfl

/-- Row r of the normalised rows is written back by the last point of row-tile r / 1024. -/
theorem cover5 (i : S8192x2048.Idx) :
    ∃ t : Fin cfg0.N, (cfg0.win 5).flush t = true ∧ i ∈ ((cfg0.win 5).blk t).view.set := by
  have hN : cfg0.N = 128 := N_0
  have hi0 : (i 0).val < 8192 := (i 0).isLt
  have hi1 : (i 1).val < 2048 := (i 1).isLt
  obtain ⟨t, ht⟩ : ∃ t : Fin cfg0.N, t.val = (i 0).val / 1024 * 16 + 15 := ⟨⟨(i 0).val / 1024 * 16 + 15, by omega⟩, rfl⟩
  obtain ⟨-, -, -, -, -, -, -, -, -, -, e50, e51⟩ := index_facts t
  refine ⟨t, (flush0_5 t).mpr (by omega), ?_⟩
  rw [mem_blk5]
  intro a
  match a with
  | ⟨0, _⟩ =>
    show win0_5.index t (0 : Fin 2) * 1024 ≤ (i 0).val ∧ (i 0).val < win0_5.index t (0 : Fin 2) * 1024 + 1024
    omega
  | ⟨1, _⟩ =>
    show win0_5.index t (1 : Fin 2) * 2048 ≤ (i 1).val ∧ (i 1).val < win0_5.index t (1 : Fin 2) * 2048 + 2048
    omega

/-- Entry (r, f) of the products is written back by the point of row-tile r / 1024 and column-tile f / 512. -/
theorem cover4 (i : S8192x8192.Idx) :
    ∃ t : Fin cfg0.N, (cfg0.win 4).flush t = true ∧ i ∈ ((cfg0.win 4).blk t).view.set := by
  have hN : cfg0.N = 128 := N_0
  have hi0 : (i 0).val < 8192 := (i 0).isLt
  have hi1 : (i 1).val < 8192 := (i 1).isLt
  obtain ⟨t, ht⟩ : ∃ t : Fin cfg0.N, t.val = (i 0).val / 1024 * 16 + (i 1).val / 512 :=
    ⟨⟨(i 0).val / 1024 * 16 + (i 1).val / 512, by omega⟩, rfl⟩
  obtain ⟨-, -, -, -, -, -, -, -, e40, e41, -, -⟩ := index_facts t
  refine ⟨t, flush0_4 t, ?_⟩
  rw [mem_blk4]
  intro a
  match a with
  | ⟨0, _⟩ =>
    show win0_4.index t (0 : Fin 2) * 1024 ≤ (i 0).val ∧ (i 0).val < win0_4.index t (0 : Fin 2) * 1024 + 1024
    omega
  | ⟨1, _⟩ =>
    show win0_4.index t (1 : Fin 2) * 512 ≤ (i 1).val ∧ (i 1).val < win0_4.index t (1 : Fin 2) * 512 + 512
    omega

/-! ## The two arrays after the run -/

/-- The second output array ends holding the normalised rows. -/
theorem final5 (c : Dev nD) :
    (dats m 0 c).arrAt 5 cfg0.N = normalisedRows (V m c main_v0) (V m c main_v2) (V m c main_v3) :=
  (dats m 0 c).arrAt_eq_of_cover 5 _ (fun t _ => flushed5_eq m c t) cover5

/-- The first output array ends holding the products of the normalised rows with the weights' columns. -/
theorem final4 (c : Dev nD) :
    (dats m 0 c).arrAt 4 cfg0.N
      = projectedRows (V m c main_v0) (V m c main_v2) (V m c main_v3) (V m c main_v1) :=
  (dats m 0 c).arrAt_eq_of_cover 4 _ (fun t _ => flushed4_eq m c t) cover4

end Cert.KernelIdeal.BlockValue

end
-- ==== Proof.HostSidesIdeal.lean ====
/-
  The host operations around the region of the idealised kernel program, over the extended reals.

  Before the region the program re-lays the input as 8192 rows, rounds the weights to half precision (the identity on
  the extended reals) and re-lays the scale and the shift as one row each; after it, it re-lays the two output arrays
  back, the first axis split in (2048, 4).
-/
import proofs.«113714_g3092376453257_feedfinal_216_2_alg».proof.Proof.BodyDataIdeal
import Idealize.ShloMosaic.Lib.StableHlo.Run
import Idealize.ShloMosaic.PureOps.Ideal
import Idealize.ShloMosaic.Lib.Pipeline.Value

set_option maxRecDepth 16384

noncomputable section

namespace Cert.KernelIdeal.HostSides

open Cert.KernelIdeal Cert.KernelIdeal.Gen Cert.KernelIdeal.Body
open Idealize.ShloMosaic Idealize.ShloMosaic.TcCoe Idealize.ShloMosaic.StableHlo
open Idealize.SL Idealize.SL.Sem
open Idealize.ShloMosaic.Pipeline (Dat)

variable (m : (ℓ : Loc nD τ sig) → Buf (Elt Ideal) ℓ)

/-! ## What the region finds -/

/-- The input as rows. -/
theorem rows_eq (c : Dev nD) :
    V m c main_v0 = shapeCast S8192x2048 (m ((c : Thread nD τ).loc main_arg0)) shapeCasts_S2048x4x2048_S8192x2048 := by
  show StableHlo.after hostOps0 (fun b => m (c, b)) (Proc.devRef .tc main_v0) = _
  after_results; rfl

/-- The weights: rounding to half precision changes nothing on the extended reals. -/
theorem weights_eq (c : Dev nD) : V m c main_v1 = m ((c : Thread nD τ).loc main_arg3) := by
  show StableHlo.after hostOps0 (fun b => m (c, b)) (Proc.devRef .tc main_v1) = _
  after_results; rfl

/-- The scale and the shift as one row each. -/
theorem scale_eq (c : Dev nD) :
    V m c main_v2 = shapeCast S1x2048 (m ((c : Thread nD τ).loc main_arg1)) shapeCasts_S2048_S1x2048 := by
  show StableHlo.after hostOps0 (fun b => m (c, b)) (Proc.devRef .tc main_v2) = _
  after_results; rfl
theorem shift_eq (c : Dev nD) :
    V m c main_v3 = shapeCast S1x2048 (m ((c : Thread nD τ).loc main_arg2)) shapeCasts_S2048_S1x2048 := by
  show StableHlo.after hostOps0 (fun b => m (c, b)) (Proc.devRef .tc main_v3) = _
  after_results; rfl

/-! ## The two re-layouts after the region -/

theorem products_out (c : Dev nD) :
    Pipeline.afterTail₀ cfgs (dats m) 0 (V0 m) [hostOps1] c main_v5
      = shapeCast S2048x4x8192 ((dats m 0 c).arrAt 4 cfg0.N) shapeCasts_S8192x8192_S2048x4x8192 := by
  unfold Pipeline.afterTail₀
  show StableHlo.after hostOps1 _ (Proc.devRef .tc main_v5) = _
  after_results
  exact congrArg (fun A => shapeCast S2048x4x8192 A shapeCasts_S8192x8192_S2048x4x8192)
    (Pipeline.withArrays_arr spec0 launch0.win.arr_inj c (V0 m c) (fun w => (dats m 0 c).arrAt w cfg0.N) 4)

theorem rows_out (c : Dev nD) :
    Pipeline.afterTail₀ cfgs (dats m) 0 (V0 m) [hostOps1] c main_v6
      = shapeCast S2048x4x2048 ((dats m 0 c).arrAt 5 cfg0.N) shapeCasts_S8192x2048_S2048x4x2048 := by
  unfold Pipeline.afterTail₀
  show StableHlo.after hostOps1 _ (Proc.devRef .tc main_v6) = _
  after_results
  exact congrArg (fun A => shapeCast S2048x4x2048 A shapeCasts_S8192x2048_S2048x4x2048)
    (Pipeline.withArrays_arr spec0 launch0.win.arr_inj c (V0 m c) (fun w => (dats m 0 c).arrAt w cfg0.N) 5)

end Cert.KernelIdeal.HostSides

end
-- ==== Proof.RunValueIdeal.lean ====
/-
  The idealised kernel program's run with both results named, over the extended reals: the first result is the matrix
  of products of the normalised rows with the columns of the weights, the second the normalised rows, each re-laid
  with its first axis split in (2048, 4); the four argument arrays end unchanged.
-/
import proofs.«113714_g3092376453257_feedfinal_216_2_alg».proof.Proof.BodySoundIdeal
import proofs.«113714_g3092376453257_feedfinal_216_2_alg».proof.Proof.BlocksIdeal
import proofs.«113714_g3092376453257_feedfinal_216_2_alg».proof.Proof.HostSidesIdeal

set_option maxRecDepth 16384

noncomputable section

namespace Cert.KernelIdeal.RunValue

open Cert.KernelIdeal Cert.KernelIdeal.Gen Cert.KernelIdeal.Body Cert.KernelIdeal.BlockValue Cert.KernelIdeal.HostSides Cert.NormDense
open Idealize.ShloMosaic Idealize.ShloMosaic.TcCoe
open Idealize.SL Idealize.SL.Sem
open Idealize.ShloMosaic.Pipeline (Dat)

variable (m : (ℓ : Loc nD τ sig) → Buf (Elt Ideal) ℓ) (ρ : Dev nD → PrngReg)

/-- The products, as a function of the argument arrays. -/
def productsOf (c : Dev nD) : Buf (Elt Ideal) ((c : Thread nD τ).loc main_v5) :=
  shapeCast S2048x4x8192 (projectedRows (shapeCast S8192x2048 (m ((c : Thread nD τ).loc main_arg0)) shapeCasts_S2048x4x2048_S8192x2048) (shapeCast S1x2048 (m ((c : Thread nD τ).loc main_arg1)) shapeCasts_S2048_S1x2048) (shapeCast S1x2048 (m ((c : Thread nD τ).loc main_arg2)) shapeCasts_S2048_S1x2048) (m ((c : Thread nD τ).loc main_arg3))) shapeCasts_S8192x8192_S2048x4x8192

/-- The normalised rows, as a function of the argument arrays. -/
def rowsOf (c : Dev nD) : Buf (Elt Ideal) ((c : Thread nD τ).loc main_v6) :=
  shapeCast S2048x4x2048 (normalisedRows (shapeCast S8192x2048 (m ((c : Thread nD τ).loc main_arg0)) shapeCasts_S2048x4x2048_S8192x2048) (shapeCast S1x2048 (m ((c : Thread nD τ).loc main_arg1)) shapeCasts_S2048_S1x2048) (shapeCast S1x2048 (m ((c : Thread nD τ).loc main_arg2)) shapeCasts_S2048_S1x2048)) shapeCasts_S8192x2048_S2048x4x2048

theorem products_eq (c : Dev nD) :
    Pipeline.afterTail₀ cfgs (dats m) 0 (V0 m) [hostOps1] c main_v5 = productsOf m c := by
  rw [products_out, final4, rows_eq, weights_eq, scale_eq, shift_eq]; rfl

theorem rows_eq' (c : Dev nD) :
    Pipeline.afterTail₀ cfgs (dats m) 0 (V0 m) [hostOps1] c main_v6 = rowsOf m c := by
  rw [rows_out, final5, rows_eq, scale_eq, shift_eq]; rfl

/-- Every weakly fair execution of the program terminates with the two results at `productsOf` and `rowsOf` and the
    arguments unchanged. -/
theorem run : θ_run defs (onTc (τ := τ) (main (F := Ideal))) ⟨m, fun _ => 0, ρ⟩ (fun r => ∀ c : Dev nD,
      r.2.mem ((c.tc : Thread nD τ).loc main_v5) = productsOf m c
      ∧ r.2.mem ((c.tc : Thread nD τ).loc main_v6) = rowsOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v5 (Pipeline.mem_restRefs_of main_v5 (by decide) (by decide))).trans (products_eq m c),
     ((h c).2 main_v6 (Pipeline.mem_restRefs_of main_v6 (by decide) (by decide))).trans (rows_eq' m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.KernelIdeal.RunValue

end
-- ==== Proof.RefRead.lean ====
/-
  The reference program's run, read one operation at a time: this module only brings the
  read-at-an-index lemmas of the reference into scope for the modules that compare the two programs.
-/
import proofs.«113714_g3092376453257_feedfinal_216_2_alg».proof.Proof.Gen.ReferenceIdeal.Read
-- ==== Proof.RefSpec.lean ====
/-
  The reference program's two results, read at an index, are the specification's expressions: the normalised array
  at (a, b, k) is the normalised row (a, b) at k, and the dense product at (a, b, f) is that row paired with column f of
  the weights.  Every stage of the reference is read at one index; the keep-dimension broadcasts only move an index, so
  what is left is the specification's formula, term for term.
-/
import proofs.«113714_g3092376453257_feedfinal_216_2_alg».proof.Proof.RefRead
import proofs.«113714_g3092376453257_feedfinal_216_2_alg».proof.Proof.Spec

noncomputable section

namespace Cert.ReferenceIdeal.RefValue

open Idealize.ShloMosaic Idealize.ShloMosaic.ValueIdx Cert.ReferenceIdeal Cert.ReferenceIdeal.Read

/-! ## Where each layout operation reads, in coordinates -/

/-- A row sum over the last axis reads the row's entries. -/
theorem idx_v0_ix (a : Fin 2048) (b : Fin 4) (k : Fin 2048) : idx_main_v0 (ix2 a b) k = ix3 a b k :=
  funext fun d => Fin.ext (by match d with | ⟨0, _⟩ => rfl | ⟨1, _⟩ => rfl | ⟨2, _⟩ => rfl)

theorem idx_v7_ix (a : Fin 2048) (b : Fin 4) (k : Fin 2048) : idx_main_v7 (ix2 a b) k = ix3 a b k :=
  funext fun d => Fin.ext (by match d with | ⟨0, _⟩ => rfl | ⟨1, _⟩ => rfl | ⟨2, _⟩ => rfl)

/-- Restoring the reduced axis with extent one reads the row's entry. -/
theorem idx_v1_ix (a : Fin 2048) (b : Fin 4) (c : Fin 1) : idx_main_v1 (ix3 a b c) = ix2 a b :=
  funext fun d => Fin.ext (by match d with | ⟨0, _⟩ => rfl | ⟨1, _⟩ => rfl)

theorem idx_v8_ix (a : Fin 2048) (b : Fin 4) (c : Fin 1) : idx_main_v8 (ix3 a b c) = ix2 a b :=
  funext fun d => Fin.ext (by match d with | ⟨0, _⟩ => rfl | ⟨1, _⟩ => rfl)

/-- Spreading a per-row number along the row reads it at position zero of the unit axis. -/
theorem idx_v4_ix (a : Fin 2048) (b : Fin 4) (k : Fin 2048) : idx_main_v4 (ix3 a b k) = ix3 a b (0 : Fin 1) :=
  funext fun d => Fin.ext (by match d with | ⟨0, _⟩ => rfl | ⟨1, _⟩ => rfl | ⟨2, _⟩ => rfl)

theorem idx_v11_ix (a : Fin 2048) (b : Fin 4) (k : Fin 2048) : idx_main_v11 (ix3 a b k) = ix3 a b (0 : Fin 1) :=
  funext fun d => Fin.ext (by match d with | ⟨0, _⟩ => rfl | ⟨1, _⟩ => rfl | ⟨2, _⟩ => rfl)

theorem idx_v16_ix (a : Fin 2048) (b : Fin 4) (k : Fin 2048) : idx_main_v16 (ix3 a b k) = ix3 a b (0 : Fin 1) :=
  funext fun d => Fin.ext (by match d with | ⟨0, _⟩ => rfl | ⟨1, _⟩ => rfl | ⟨2, _⟩ => rfl)

/-- Spreading a vector over the rows reads it at the position within the row. -/
theorem idx_v19_ix (a : Fin 2048) (b : Fin 4) (k : Fin 2048) :
    idx_main_v18 (idx_main_v19 (ix3 a b k)) = ix1 k :=
  funext fun d => Fin.ext (by match d with | ⟨0, _⟩ => rfl)

theorem idx_v22_ix (a : Fin 2048) (b : Fin 4) (k : Fin 2048) :
    idx_main_v21 (idx_main_v22 (ix3 a b k)) = ix1 k :=
  funext fun d => Fin.ext (by match d with | ⟨0, _⟩ => rfl)

/-- The dense product's left operand is read along the row … -/
theorem lidx_v24_ix (a : Fin 2048) (b : Fin 4) (f : Fin 8192) (k : Fin 2048) :
    lidx_main_v24 (ix3 a b f) k = ix3 a b k :=
  funext fun d => Fin.ext (by match d with | ⟨0, _⟩ => rfl | ⟨1, _⟩ => rfl | ⟨2, _⟩ => rfl)

/-- … and its right operand down the column. -/
theorem ridx_v24_ix (a : Fin 2048) (b : Fin 4) (f : Fin 8192) (k : Fin 2048) :
    ridx_main_v24 (ix3 a b f) k = ix2 k f :=
  funext fun d => Fin.ext (by match d with | ⟨0, _⟩ => rfl | ⟨1, _⟩ => rfl)

/-! ## The stages, one at a time -/

/-- The mean stage is the row's mean. -/
theorem mean_apply (x0 : (⟨S2048x4x2048, .f32⟩ : BufTy).Contents (Elt Ideal)) (a : Fin 2048) (b : Fin 4) (c : Fin 1) :
    val_main_v3 (F := Ideal) x0 (ix3 a b c) = Cert.NormDense.mean (fun k' => x0 (ix3 a b k')) := by
  rw [val_main_v3_apply, val_main_v1_apply, val_main_v2_apply, val_main_cst_0_apply, idx_v1_ix, val_main_v0_apply,
    val_main_cst_apply]
  simp only [idx_v0_ix, Ideal.hostDivf_def, Ideal.ofBits_def, Ideal.ofBits_zero_f32, zero_add]
  rfl

/-- Both subtractions of the broadcast mean give the centred entry. -/
theorem centred_apply (x0 : (⟨S2048x4x2048, .f32⟩ : BufTy).Contents (Elt Ideal)) (a : Fin 2048) (b : Fin 4) (k : Fin 2048) :
    val_main_v5 (F := Ideal) x0 (ix3 a b k) = Cert.NormDense.centred (fun k' => x0 (ix3 a b k')) k := by
  rw [val_main_v5_apply, val_main_v4_apply, idx_v4_ix, mean_apply]
  rfl

theorem centred_apply' (x0 : (⟨S2048x4x2048, .f32⟩ : BufTy).Contents (Elt Ideal)) (a : Fin 2048) (b : Fin 4) (k : Fin 2048) :
    val_main_v12 (F := Ideal) x0 (ix3 a b k) = Cert.NormDense.centred (fun k' => x0 (ix3 a b k')) k := by
  rw [val_main_v12_apply, val_main_v11_apply, idx_v11_ix, mean_apply]
  rfl

/-- The variance stage is the row's variance. -/
theorem variance_apply (x0 : (⟨S2048x4x2048, .f32⟩ : BufTy).Contents (Elt Ideal)) (a : Fin 2048) (b : Fin 4) (c : Fin 1) :
    val_main_v10 (F := Ideal) x0 (ix3 a b c) = Cert.NormDense.variance (fun k' => x0 (ix3 a b k')) := by
  rw [val_main_v10_apply, val_main_v8_apply, val_main_v9_apply, val_main_cst_2_apply, idx_v8_ix, val_main_v7_apply,
    val_main_cst_1_apply]
  simp only [idx_v7_ix, val_main_v6_apply, centred_apply, Ideal.hostDivf_def, Ideal.mulf_def, Ideal.ofBits_def,
    Ideal.ofBits_zero_f32, zero_add]
  rfl

/-- The normalised array at (a, b, k) is the normalised row (a, b) at k. -/
theorem normalised_apply (x0 : (⟨S2048x4x2048, .f32⟩ : BufTy).Contents (Elt Ideal))
    (x1 x2 : (⟨S2048, .f32⟩ : BufTy).Contents (Elt Ideal)) (a : Fin 2048) (b : Fin 4) (k : Fin 2048) :
    val_main_v23 (F := Ideal) x0 x1 x2 (ix3 a b k)
      = Cert.NormDense.normalised (fun k' => x0 (ix3 a b k')) (fun k' => x1 (ix1 k')) (fun k' => x2 (ix1 k')) k := by
  rw [val_main_v23_apply, val_main_v20_apply, val_main_v17_apply, centred_apply', val_main_v16_apply, idx_v16_ix,
    val_main_v15_apply, val_main_v14_apply, variance_apply, val_main_v13_apply, val_main_cst_3_apply,
    val_main_v19_apply, val_main_v18_apply, idx_v19_ix, val_main_v22_apply, val_main_v21_apply, idx_v22_ix]
  simp only [Ideal.addf_def, Ideal.mulf_def, Ideal.hostUnary_rsqrt_def, Ideal.ofBits_def]
  rfl

/-- The dense product at (a, b, f) is the normalised row (a, b) paired with column f of the weights. -/
theorem projected_apply (x0 : (⟨S2048x4x2048, .f32⟩ : BufTy).Contents (Elt Ideal))
    (x1 x2 : (⟨S2048, .f32⟩ : BufTy).Contents (Elt Ideal)) (x3 : (⟨S2048x8192, .f32⟩ : BufTy).Contents (Elt Ideal))
    (a : Fin 2048) (b : Fin 4) (f : Fin 8192) :
    val_main_v24 (F := Ideal) x0 x1 x2 x3 (ix3 a b f)
      = Cert.NormDense.projected (fun k => x0 (ix3 a b k)) (fun k => x1 (ix1 k)) (fun k => x2 (ix1 k))
          (fun k => x3 (ix2 k f)) := by
  rw [val_main_v24_apply]
  unfold Cert.NormDense.projected
  refine Finset.sum_congr rfl fun k _ => ?_
  rw [lidx_v24_ix, ridx_v24_ix, normalised_apply]

end Cert.ReferenceIdeal.RefValue

end
-- ==== Proof.Bridge.lean ====
/-
  The kernel's two result arrays, written through the row view, are the reference's two stages.

  The kernel's program merges the first two axes of the [2048, 4, 2048] input, so that row 4·a + b of the [8192, 2048]
  matrix is the row (a, b); it lays the scale and the shift out as one row each; and it splits the first axis of its two
  results again.  Row-major order is what all of these re-layouts keep, so reading each of them at an index is one
  equation between row-major positions.  What is then left on each side is the specification's expression for the same
  row, the same scale and shift and the same column of the weights.
-/
import proofs.«113714_g3092376453257_feedfinal_216_2_alg».proof.Proof.RefSpec
import proofs.«113714_g3092376453257_feedfinal_216_2_alg».proof.Proof.SpecArrays
import proofs.«113714_g3092376453257_feedfinal_216_2_alg».proof.Proof.LibBroadcast
import Idealize.ShloMosaic.Lib.Pipeline.Value

noncomputable section

namespace Cert.ReferenceIdeal.RefValue

open Idealize.ShloMosaic Idealize.ShloMosaic.ValueIdx Cert.ReferenceIdeal Cert.ReferenceIdeal.Read Cert.NormDense

/-- The row of the merged matrix that holds the row (a, b) of the three-axis array: 4·a + b. -/
def mergedRow (a : Fin 2048) (b : Fin 4) : Fin 8192 := ⟨4 * a.val + b.val, by omega⟩

/-- Row 4·a + b of the merged input is the row (a, b) of the input. -/
theorem rowOf_merged (x0 : (⟨S2048x4x2048, .f32⟩ : BufTy).Contents (Elt Ideal)) (h0 : S2048x4x2048.ShapeCasts Rows)
    (a : Fin 2048) (b : Fin 4) :
    rowOf (shapeCast Rows x0 h0) (mergedRow a b) = fun k' => x0 (ix3 a b k') := by
  funext k'
  show shapeCast Rows x0 h0 (ix2 (mergedRow a b) k') = x0 (ix3 a b k')
  refine shapeCast_apply x0 h0 (ix2 (mergedRow a b) k') (ix3 a b k') ?_
  rw [Shape.rowMajor_val_three, Shape.rowMajor_val_two]
  show (a.val * 4 + b.val) * 2048 + k'.val = (4 * a.val + b.val) * 2048 + k'.val
  omega

/-- A vector laid out as one row, read back as a vector, is the vector. -/
theorem vecOf_row (x1 : (⟨S2048, .f32⟩ : BufTy).Contents (Elt Ideal)) (h1 : S2048.ShapeCasts OneRow) :
    vecOf (shapeCast OneRow x1 h1) = fun k' => x1 (ix1 k') := by
  funext k'
  exact Cert.Layout.shapeCast_row_apply x1 h1 k'

/-- The normalised rows, with the first axis split again, are the reference's normalised array. -/
theorem normalised_bridge (x0 : (⟨S2048x4x2048, .f32⟩ : BufTy).Contents (Elt Ideal))
    (x1 x2 : (⟨S2048, .f32⟩ : BufTy).Contents (Elt Ideal))
    (h0 : S2048x4x2048.ShapeCasts Rows) (h1 : S2048.ShapeCasts OneRow) (h3 : Rows.ShapeCasts S2048x4x2048) :
    shapeCast S2048x4x2048 (normalisedRows (shapeCast Rows x0 h0) (shapeCast OneRow x1 h1) (shapeCast OneRow x2 h1)) h3
      = val_main_v23 (F := Ideal) x0 x1 x2 := by
  funext i
  obtain ⟨a, b, k, rfl⟩ : ∃ (a : Fin 2048) (b : Fin 4) (k : Fin 2048), i = ix3 a b k := ⟨i 0, i 1, i 2, eq_ix3 i⟩
  refine (shapeCast_apply _ h3 (ix3 a b k) (ix2 (mergedRow a b) k) ?_).trans ?_
  · rw [Shape.rowMajor_val_two, Shape.rowMajor_val_three]
    show (4 * a.val + b.val) * 2048 + k.val = (a.val * 4 + b.val) * 2048 + k.val
    omega
  · rw [normalisedRows_apply, rowOf_merged, vecOf_row, vecOf_row]
    exact (normalised_apply x0 x1 x2 a b k).symm

/-- The products of the normalised rows with the weights' columns, with the first axis split again, are the
    reference's dense product. -/
theorem projected_bridge (x0 : (⟨S2048x4x2048, .f32⟩ : BufTy).Contents (Elt Ideal))
    (x1 x2 : (⟨S2048, .f32⟩ : BufTy).Contents (Elt Ideal)) (x3 : (⟨S2048x8192, .f32⟩ : BufTy).Contents (Elt Ideal))
    (h0 : S2048x4x2048.ShapeCasts Rows) (h1 : S2048.ShapeCasts OneRow) (h4 : Products.ShapeCasts S2048x4x8192) :
    shapeCast S2048x4x8192
        (projectedRows (shapeCast Rows x0 h0) (shapeCast OneRow x1 h1) (shapeCast OneRow x2 h1) x3) h4
      = val_main_v24 (F := Ideal) x0 x1 x2 x3 := by
  funext i
  obtain ⟨a, b, f, rfl⟩ : ∃ (a : Fin 2048) (b : Fin 4) (f : Fin 8192), i = ix3 a b f := ⟨i 0, i 1, i 2, eq_ix3 i⟩
  refine (shapeCast_apply _ h4 (ix3 a b f) (ix2 (mergedRow a b) f) ?_).trans ?_
  · rw [Shape.rowMajor_val_two, Shape.rowMajor_val_three]
    show (4 * a.val + b.val) * 8192 + f.val = (a.val * 4 + b.val) * 8192 + f.val
    omega
  · rw [projectedRows_apply, rowOf_merged, vecOf_row, vecOf_row]
    exact (projected_apply x0 x1 x2 x3 a b f).symm

end Cert.ReferenceIdeal.RefValue

end
-- ==== Proof.lean ====
/-
  A fused layer-normalisation + dense kernel against its plain reference, over the extended reals.

  The input x : [2048, 4, 2048] is read as 8192 rows of 2048 numbers.  Each row ξ is normalised,
      yₖ = (ξₖ − μ) · (σ² + ε)^(−1/2) · sₖ + bₖ,   μ = (Σₖ ξₖ) / 2048,   σ² = (Σₖ (ξₖ − μ)²) / 2048,
  and multiplied with the weights w : [2048, 8192]:  z_f = Σₖ yₖ · w_{k f}.  The two results are z and y.

  The kernel walks a grid of 8 row-tiles × 16 column-tiles, the column-tile moving fastest.  At the first column-tile of
  a row-tile it normalises the 1024 rows of the tile, stores them into the second output's block and a half-precision
  copy into a scratch buffer that it keeps for the remaining fifteen column-tiles; at every point it multiplies the
  copy with a 2048 × 512 tile of the (half-precision) weights into the first output's block.  The second output's block
  is written back only at the row-tile's last column-tile, and holds then what the first one stored.

  On the extended reals a change of float format is the identity, the kernel's row sums and the reference's are the same
  finite sums, and both products are the same sums of products; both programs apply the same operations in the same
  order, so the two results agree entry by entry (Spec.lean states the common expression; Payload.lean reads it off the
  kernel's body, RefSpec.lean off the reference, BlocksIdeal.lean assembles the kernel's blocks into whole arrays,
  Bridge.lean re-lays them).  No step moves a term across a sum or cancels one, so finiteness of the inputs is not used.
  The idealised kernel is the kernel's own text read over the extended reals: nothing was rewritten, so there is nothing
  to preserve.  Each program runs to the end without a fault and leaves its arguments unchanged.
-/
import proofs.«113714_g3092376453257_feedfinal_216_2_alg».proof.Defs
import proofs.«113714_g3092376453257_feedfinal_216_2_alg».proof.Proof.Gen.Kernel
import proofs.«113714_g3092376453257_feedfinal_216_2_alg».proof.Proof.Gen.KernelIdeal
import proofs.«113714_g3092376453257_feedfinal_216_2_alg».proof.Proof.Gen.ReferenceIdeal
import proofs.«113714_g3092376453257_feedfinal_216_2_alg».proof.Proof.Gen.Pre_finite_inputs
import proofs.«113714_g3092376453257_feedfinal_216_2_alg».proof.Proof.BodySoundBits
import proofs.«113714_g3092376453257_feedfinal_216_2_alg».proof.Proof.RunValueIdeal
import proofs.«113714_g3092376453257_feedfinal_216_2_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Body.frame m ρ

/-- So does the kernel read over the extended reals. -/
theorem frame_kernelIdeal : Cert.frame_KernelIdeal := fun m ρ _ => Cert.KernelIdeal.Body.frame m ρ

/-- The reference is a straight line of host operations: its run, with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Nothing was rewritten between the kernel and its reading over the extended reals. -/
theorem preserves : Cert.preserves_Kernel_KernelIdeal := trivial

/-- From memories agreeing on the arguments, the kernel ends with the products and the normalised rows of the
    specification, re-laid; the reference's two stages are the same arrays. -/
theorem algebraic : Cert.algebraic_KernelIdeal_ReferenceIdeal := by
  intro m ρ m' ρ' _ hagree
  refine ⟨_, _, Cert.KernelIdeal.RunValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v24_eq, (hagree c).1, (hagree c).2.1, (hagree c).2.2.1, (hagree c).2.2.2]
    exact (Cert.ReferenceIdeal.RefValue.projected_bridge _ _ _ _ _ _ _).symm
  · rw [Cert.ReferenceIdeal.Read.val_main_v23_eq, (hagree c).1, (hagree c).2.1, (hagree c).2.2.1]
    exact (Cert.ReferenceIdeal.RefValue.normalised_bridge _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
